-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x1 : Shape := ⟨2, ![4000000, 1]⟩
abbrev S5x1 : Shape := ⟨2, ![5, 1]⟩
abbrev S5 : Shape := ⟨1, ![5]⟩
abbrev S10x5 : Shape := ⟨2, ![10, 5]⟩
abbrev S10 : Shape := ⟨1, ![10]⟩
abbrev S10x10 : Shape := ⟨2, ![10, 10]⟩
abbrev S5x10 : Shape := ⟨2, ![5, 10]⟩
abbrev S1x5 : Shape := ⟨2, ![1, 5]⟩
abbrev S1 : Shape := ⟨1, ![1]⟩
abbrev S_ : Shape := ⟨0, ![]⟩

class Facts : Prop where
  bcast_S_S4000000x1 : S_.BroadcastsInDim S4000000x1 (![] : Fin 0 → Fin S4000000x1.rank)
  reducesTo_S4000000x1_S_d0_1 : S4000000x1.ReducesTo [0, 1] S_
  h_S_ : 0 < S_.numel
  bcast_S_S5x1 : S_.BroadcastsInDim S5x1 (![] : Fin 0 → Fin S5x1.rank)
  reducesTo_S5x1_S_d0_1 : S5x1.ReducesTo [0, 1] S_
  bcast_S_S5 : S_.BroadcastsInDim S5 (![] : Fin 0 → Fin S5.rank)
  reducesTo_S5_S_d0 : S5.ReducesTo [0] S_
  bcast_S_S10x5 : S_.BroadcastsInDim S10x5 (![] : Fin 0 → Fin S10x5.rank)
  reducesTo_S10x5_S_d0_1 : S10x5.ReducesTo [0, 1] S_
  bcast_S_S10 : S_.BroadcastsInDim S10 (![] : Fin 0 → Fin S10.rank)
  reducesTo_S10_S_d0 : S10.ReducesTo [0] S_
  bcast_S_S10x10 : S_.BroadcastsInDim S10x10 (![] : Fin 0 → Fin S10x10.rank)
  reducesTo_S10x10_S_d0_1 : S10x10.ReducesTo [0, 1] S_
  bcast_S_S5x10 : S_.BroadcastsInDim S5x10 (![] : Fin 0 → Fin S5x10.rank)
  reducesTo_S5x10_S_d0_1 : S5x10.ReducesTo [0, 1] S_
  bcast_S_S1x5 : S_.BroadcastsInDim S1x5 (![] : Fin 0 → Fin S1x5.rank)
  reducesTo_S1x5_S_d0_1 : S1x5.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  main_v103

def fn_part5 {F : FTy → Type} [FloatOps F] (main_arg18 : FVec F S5 .f32) (main_arg19 : FVec F S1x5 .f32) (main_arg20 : FVec F S1 .f32) (main_v83 : IVec S_ 1) (main_v84 : FVec F S5x10 .f32) (main_cst_32 : FVec F S_ .f32) : IVec S_ 1 :=
  let main_v85 : FVec F S5x10 .f32 := broadcastInDim S5x10 ![] bcast_S_S5x10 main_cst_32
  let main_v86 : IVec S5x10 1 := cmpf .olt main_v84 main_v85
  let main_c_33 : IVec S_ 1 := constantI S_ 1 1#1
  let main_v87 : IVec S_ 1 := (fun x v => Host.reduce IntOp.andi x v reducesTo_S5x10_S_d0_1 h_S_) main_v86 main_c_33
  let main_v88 : IVec S_ 1 := andi main_v83 main_v87
  let main_v89 : FVec F S5 .f32 := Host.absf main_arg18
  let main_cst_34 : FVec F S_ .f32 := constant S_ .f32 0x7F800000#32
  let main_v90 : FVec F S5 .f32 := broadcastInDim S5 ![] bcast_S_S5 main_cst_34
  let main_v91 : IVec S5 1 := cmpf .olt main_v89 main_v90
  let main_c_35 : IVec S_ 1 := constantI S_ 1 1#1
  let main_v92 : IVec S_ 1 := (fun x v => Host.reduce IntOp.andi x v reducesTo_S5_S_d0 h_S_) main_v91 main_c_35
  let main_v93 : IVec S_ 1 := andi main_v88 main_v92
  let main_v94 : FVec F S1x5 .f32 := Host.absf main_arg19
  let main_cst_36 : FVec F S_ .f32 := constant S_ .f32 0x7F800000#32
  let main_v95 : FVec F S1x5 .f32 := broadcastInDim S1x5 ![] bcast_S_S1x5 main_cst_36
  let main_v96 : IVec S1x5 1 := cmpf .olt main_v94 main_v95
  let main_c_37 : IVec S_ 1 := constantI S_ 1 1#1
  let main_v97 : IVec S_ 1 := (fun x v => Host.reduce IntOp.andi x v reducesTo_S1x5_S_d0_1 h_S_) main_v96 main_c_37
  let main_v98 : IVec S_ 1 := andi main_v93 main_v97
  let main_v99 : FVec F S1 .f32 := Host.absf main_arg20
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_v98 main_v101 main_c_39

def fn_part4 {F : FTy → Type} [FloatOps F] (main_arg14 : FVec F S10 .f32) (main_arg15 : FVec F S10x10 .f32) (main_arg16 : FVec F S10 .f32) (main_arg17 : FVec F S5x10 .f32) (main_arg18 : FVec F S5 .f32) (main_arg19 : FVec F S1x5 .f32) (main_arg20 : FVec F S1 .f32) (main_v63 : IVec S_ 1) (main_v67 : IVec S_ 1) : IVec S_ 1 :=
  let main_v68 : IVec S_ 1 := andi main_v63 main_v67
  let main_v69 : FVec F S10 .f32 := Host.absf main_arg14
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  let main_v74 : FVec F S10x10 .f32 := Host.absf main_arg15
  let main_cst_28 : FVec F S_ .f32 := constant S_ .f32 0x7F800000#32
  let main_v75 : FVec F S10x10 .f32 := broadcastInDim S10x10 ![] bcast_S_S10x10 main_cst_28
  let main_v76 : IVec S10x10 1 := cmpf .olt main_v74 main_v75
  let main_c_29 : IVec S_ 1 := constantI S_ 1 1#1
  let main_v77 : IVec S_ 1 := (fun x v => Host.reduce IntOp.andi x v reducesTo_S10x10_S_d0_1 h_S_) main_v76 main_c_29
  let main_v78 : IVec S_ 1 := andi main_v73 main_v77
  let main_v79 : FVec F S10 .f32 := Host.absf main_arg16
  let main_cst_30 : FVec F S_ .f32 := constant S_ .f32 0x7F800000#32
  let main_v80 : FVec F S10 .f32 := broadcastInDim S10 ![] bcast_S_S10 main_cst_30
  let main_v81 : IVec S10 1 := cmpf .olt main_v79 main_v80
  let main_c_31 : IVec S_ 1 := constantI S_ 1 1#1
  let main_v82 : IVec S_ 1 := (fun x v => Host.reduce IntOp.andi x v reducesTo_S10_S_d0 h_S_) main_v81 main_c_31
  let main_v83 : IVec S_ 1 := andi main_v78 main_v82
  let main_v84 : FVec F S5x10 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S10x10 .f32) (main_arg12 : FVec F S10 .f32) (main_arg13 : FVec F S10x10 .f32) (main_arg14 : FVec F S10 .f32) (main_arg15 : FVec F S10x10 .f32) (main_arg16 : FVec F S10 .f32) (main_arg17 : FVec F S5x10 .f32) (main_arg18 : FVec F S5 .f32) (main_arg19 : FVec F S1x5 .f32) (main_arg20 : FVec F S1 .f32) (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  let main_v54 : FVec F S10x10 .f32 := Host.absf main_arg11
  let main_cst_20 : FVec F S_ .f32 := constant S_ .f32 0x7F800000#32
  let main_v55 : FVec F S10x10 .f32 := broadcastInDim S10x10 ![] bcast_S_S10x10 main_cst_20
  let main_v56 : IVec S10x10 1 := cmpf .olt main_v54 main_v55
  let main_c_21 : IVec S_ 1 := constantI S_ 1 1#1
  let main_v57 : IVec S_ 1 := (fun x v => Host.reduce IntOp.andi x v reducesTo_S10x10_S_d0_1 h_S_) main_v56 main_c_21
  let main_v58 : IVec S_ 1 := andi main_v53 main_v57
  let main_v59 : FVec F S10 .f32 := Host.absf main_arg12
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  let main_v64 : FVec F S10x10 .f32 := Host.absf main_arg13
  let main_cst_24 : FVec F S_ .f32 := constant S_ .f32 0x7F800000#32
  let main_v65 : FVec F S10x10 .f32 := broadcastInDim S10x10 ![] bcast_S_S10x10 main_cst_24
  let main_v66 : IVec S10x10 1 := cmpf .olt main_v64 main_v65
  let main_c_25 : IVec S_ 1 := constantI S_ 1 1#1
  let main_v67 : IVec S_ 1 := (fun x v => Host.reduce IntOp.andi x v reducesTo_S10x10_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S10x10 .f32) (main_arg8 : FVec F S10 .f32) (main_arg9 : FVec F S10x10 .f32) (main_arg10 : FVec F S10 .f32) (main_arg11 : FVec F S10x10 .f32) (main_arg12 : FVec F S10 .f32) (main_arg13 : FVec F S10x10 .f32) (main_arg14 : FVec F S10 .f32) (main_arg15 : FVec F S10x10 .f32) (main_arg16 : FVec F S10 .f32) (main_arg17 : FVec F S5x10 .f32) (main_arg18 : FVec F S5 .f32) (main_arg19 : FVec F S1x5 .f32) (main_arg20 : FVec F S1 .f32) (main_v33 : IVec S_ 1) : IVec S_ 1 :=
  let main_v34 : FVec F S10x10 .f32 := Host.absf main_arg7
  let main_cst_12 : FVec F S_ .f32 := constant S_ .f32 0x7F800000#32
  let main_v35 : FVec F S10x10 .f32 := broadcastInDim S10x10 ![] bcast_S_S10x10 main_cst_12
  let main_v36 : IVec S10x10 1 := cmpf .olt main_v34 main_v35
  let main_c_13 : IVec S_ 1 := constantI S_ 1 1#1
  let main_v37 : IVec S_ 1 := (fun x v => Host.reduce IntOp.andi x v reducesTo_S10x10_S_d0_1 h_S_) main_v36 main_c_13
  let main_v38 : IVec S_ 1 := andi main_v33 main_v37
  let main_v39 : FVec F S10 .f32 := Host.absf main_arg8
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  let main_v44 : FVec F S10x10 .f32 := Host.absf main_arg9
  let main_cst_16 : FVec F S_ .f32 := constant S_ .f32 0x7F800000#32
  let main_v45 : FVec F S10x10 .f32 := broadcastInDim S10x10 ![] bcast_S_S10x10 main_cst_16
  let main_v46 : IVec S10x10 1 := cmpf .olt main_v44 main_v45
  let main_c_17 : IVec S_ 1 := constantI S_ 1 1#1
  let main_v47 : IVec S_ 1 := (fun x v => Host.reduce IntOp.andi x v reducesTo_S10x10_S_d0_1 h_S_) main_v46 main_c_17
  let main_v48 : IVec S_ 1 := andi main_v43 main_v47
  let main_v49 : FVec F S10 .f32 := Host.absf main_arg10
  let main_cst_18 : FVec F S_ .f32 := constant S_ .f32 0x7F800000#32
  let main_v50 : FVec F S10 .f32 := broadcastInDim S10 ![] bcast_S_S10 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S10 .f32) (main_arg5 : FVec F S10x10 .f32) (main_arg6 : FVec F S10 .f32) (main_arg7 : FVec F S10x10 .f32) (main_arg8 : FVec F S10 .f32) (main_arg9 : FVec F S10x10 .f32) (main_arg10 : FVec F S10 .f32) (main_arg11 : FVec F S10x10 .f32) (main_arg12 : FVec F S10 .f32) (main_arg13 : FVec F S10x10 .f32) (main_arg14 : FVec F S10 .f32) (main_arg15 : FVec F S10x10 .f32) (main_arg16 : FVec F S10 .f32) (main_arg17 : FVec F S5x10 .f32) (main_arg18 : FVec F S5 .f32) (main_arg19 : FVec F S1x5 .f32) (main_arg20 : FVec F S1 .f32) (main_v13 : IVec S_ 1) (main_v16 : IVec S10x5 1) : IVec S_ 1 :=
  let main_c_5 : IVec S_ 1 := constantI S_ 1 1#1
  let main_v17 : IVec S_ 1 := (fun x v => Host.reduce IntOp.andi x v reducesTo_S10x5_S_d0_1 h_S_) main_v16 main_c_5
  let main_v18 : IVec S_ 1 := andi main_v13 main_v17
  let main_v19 : FVec F S10 .f32 := Host.absf main_arg4
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  let main_v24 : FVec F S10x10 .f32 := Host.absf main_arg5
  let main_cst_8 : FVec F S_ .f32 := constant S_ .f32 0x7F800000#32
  let main_v25 : FVec F S10x10 .f32 := broadcastInDim S10x10 ![] bcast_S_S10x10 main_cst_8
  let main_v26 : IVec S10x10 1 := cmpf .olt main_v24 main_v25
  let main_c_9 : IVec S_ 1 := constantI S_ 1 1#1
  let main_v27 : IVec S_ 1 := (fun x v => Host.reduce IntOp.andi x v reducesTo_S10x10_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S4000000x1 .f32) (main_arg1 : FVec F S5x1 .f32) (main_arg2 : FVec F S5 .f32) (main_arg3 : FVec F S10x5 .f32) (main_arg4 : FVec F S10 .f32) (main_arg5 : FVec F S10x10 .f32) (main_arg6 : FVec F S10 .f32) (main_arg7 : FVec F S10x10 .f32) (main_arg8 : FVec F S10 .f32) (main_arg9 : FVec F S10x10 .f32) (main_arg10 : FVec F S10 .f32) (main_arg11 : FVec F S10x10 .f32) (main_arg12 : FVec F S10 .f32) (main_arg13 : FVec F S10x10 .f32) (main_arg14 : FVec F S10 .f32) (main_arg15 : FVec F S10x10 .f32) (main_arg16 : FVec F S10 .f32) (main_arg17 : FVec F S5x10 .f32) (main_arg18 : FVec F S5 .f32) (main_arg19 : FVec F S1x5 .f32) (main_arg20 : FVec F S1 .f32) : IVec S_ 1 :=
  let main_v0 : FVec F S4000000x1 .f32 := Host.absf main_arg0
  let main_cst : FVec F S_ .f32 := constant S_ .f32 0x7F800000#32
  let main_v1 : FVec F S4000000x1 .f32 := broadcastInDim S4000000x1 ![] bcast_S_S4000000x1 main_cst
  let main_v2 : IVec S4000000x1 1 := cmpf .olt main_v0 main_v1
  let main_c : IVec S_ 1 := constantI S_ 1 1#1
  let main_v3 : IVec S_ 1 := (fun x v => Host.reduce IntOp.andi x v reducesTo_S4000000x1_S_d0_1 h_S_) main_v2 main_c
  let main_v4 : FVec F S5x1 .f32 := Host.absf main_arg1
  let main_cst_0 : FVec F S_ .f32 := constant S_ .f32 0x7F800000#32
  let main_v5 : FVec F S5x1 .f32 := broadcastInDim S5x1 ![] bcast_S_S5x1 main_cst_0
  let main_v6 : IVec S5x1 1 := cmpf .olt main_v4 main_v5
  let main_c_1 : IVec S_ 1 := constantI S_ 1 1#1
  let main_v7 : IVec S_ 1 := (fun x v => Host.reduce IntOp.andi x v reducesTo_S5x1_S_d0_1 h_S_) main_v6 main_c_1
  let main_v8 : IVec S_ 1 := andi main_v3 main_v7
  let main_v9 : FVec F S5 .f32 := Host.absf main_arg2
  let main_cst_2 : FVec F S_ .f32 := constant S_ .f32 0x7F800000#32
  let main_v10 : FVec F S5 .f32 := broadcastInDim S5 ![] bcast_S_S5 main_cst_2
  let main_v11 : IVec S5 1 := cmpf .olt main_v9 main_v10
  let main_c_3 : IVec S_ 1 := constantI S_ 1 1#1
  let main_v12 : IVec S_ 1 := (fun x v => Host.reduce IntOp.andi x v reducesTo_S5_S_d0 h_S_) main_v11 main_c_3
  let main_v13 : IVec S_ 1 := andi main_v8 main_v12
  let main_v14 : FVec F S10x5 .f32 := Host.absf main_arg3
  let main_cst_4 : FVec F S_ .f32 := constant S_ .f32 0x7F800000#32
  let main_v15 : FVec F S10x5 .f32 := broadcastInDim S10x5 ![] bcast_S_S10x5 main_cst_4
  let main_v16 : IVec S10x5 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S4000000x1 : Shape := ⟨2, ![4000000, 1]⟩
abbrev S5x1 : Shape := ⟨2, ![5, 1]⟩
abbrev S5 : Shape := ⟨1, ![5]⟩
abbrev S10x5 : Shape := ⟨2, ![10, 5]⟩
abbrev S10 : Shape := ⟨1, ![10]⟩
abbrev S10x10 : Shape := ⟨2, ![10, 10]⟩
abbrev S5x10 : Shape := ⟨2, ![5, 10]⟩
abbrev S1x5 : Shape := ⟨2, ![1, 5]⟩
abbrev S1 : Shape := ⟨1, ![1]⟩
abbrev S1x10 : Shape := ⟨2, ![1, 10]⟩
abbrev S1x1 : Shape := ⟨2, ![1, 1]⟩
abbrev S8000x1 : Shape := ⟨2, ![8000, 1]⟩
abbrev S8000x5 : Shape := ⟨2, ![8000, 5]⟩
abbrev S8000x10 : Shape := ⟨2, ![8000, 10]⟩

abbrev nBuf : Space → Nat
  | .hbm => 42
  | .vmem => 24
  | .smem => 0
  | _ => 0

abbrev bufTy : (tb : Table) → Fin (tcTables nBuf tb) → BufTy
  | .hbm, ⟨0, _⟩ => ⟨S4000000x1, .f32⟩
  | .hbm, ⟨1, _⟩ => ⟨S5x1, .f32⟩
  | .hbm, ⟨2, _⟩ => ⟨S5, .f32⟩
  | .hbm, ⟨3, _⟩ => ⟨S10x5, .f32⟩
  | .hbm, ⟨4, _⟩ => ⟨S10, .f32⟩
  | .hbm, ⟨5, _⟩ => ⟨S10x10, .f32⟩
  | .hbm, ⟨6, _⟩ => ⟨S10, .f32⟩
  | .hbm, ⟨7, _⟩ => ⟨S10x10, .f32⟩
  | .hbm, ⟨8, _⟩ => ⟨S10, .f32⟩
  | .hbm, ⟨9, _⟩ => ⟨S10x10, .f32⟩
  | .hbm, ⟨10, _⟩ => ⟨S10, .f32⟩
  | .hbm, ⟨11, _⟩ => ⟨S10x10, .f32⟩
  | .hbm, ⟨12, _⟩ => ⟨S10, .f32⟩
  | .hbm, ⟨13, _⟩ => ⟨S10x10, .f32⟩
  | .hbm, ⟨14, _⟩ => ⟨S10, .f32⟩
  | .hbm, ⟨15, _⟩ => ⟨S10x10, .f32⟩
  | .hbm, ⟨16, _⟩ => ⟨S10, .f32⟩
  | .hbm, ⟨17, _⟩ => ⟨S5x10, .f32⟩
  | .hbm, ⟨18, _⟩ => ⟨S5, .f32⟩
  | .hbm, ⟨19, _⟩ => ⟨S1x5, .f32⟩
  | .hbm, ⟨20, _⟩ => ⟨S1, .f32⟩
  | .hbm, ⟨21, _⟩ => ⟨S1x5, .f32⟩
  | .hbm, ⟨22, _⟩ => ⟨S5x10, .f32⟩
  | .hbm, ⟨23, _⟩ => ⟨S10x10, .f32⟩
  | .hbm, ⟨24, _⟩ => ⟨S10x10, .f32⟩
  | .hbm, ⟨25, _⟩ => ⟨S10x10, .f32⟩
  | .hbm, ⟨26, _⟩ => ⟨S10x10, .f32⟩
  | .hbm, ⟨27, _⟩ => ⟨S10x10, .f32⟩
  | .hbm, ⟨28, _⟩ => ⟨S10x10, .f32⟩
  | .hbm, ⟨29, _⟩ => ⟨S10x5, .f32⟩
  | .hbm, ⟨30, _⟩ => ⟨S5x1, .f32⟩
  | .hbm, ⟨31, _⟩ => ⟨S1x5, .f32⟩
  | .hbm, ⟨32, _⟩ => ⟨S1x10, .f32⟩
  | .hbm, ⟨33, _⟩ => ⟨S1x10, .f32⟩
  | .hbm, ⟨34, _⟩ => ⟨S1x10, .f32⟩
  | .hbm, ⟨35, _⟩ => ⟨S1x10, .f32⟩
  | .hbm, ⟨36, _⟩ => ⟨S1x10, .f32⟩
  | .hbm, ⟨37, _⟩ => ⟨S1x10, .f32⟩
  | .hbm, ⟨38, _⟩ => ⟨S1x10, .f32⟩
  | .hbm, ⟨39, _⟩ => ⟨S1x5, .f32⟩
  | .hbm, ⟨40, _⟩ => ⟨S1x1, .f32⟩
  | .hbm, ⟨41, _⟩ => ⟨S4000000x1, .f32⟩
  | .local _ .vmem, ⟨0, _⟩ => ⟨S8000x1, .f32⟩
  | .local _ .vmem, ⟨1, _⟩ => ⟨S8000x1, .f32⟩
  | .local _ .vmem, ⟨2, _⟩ => ⟨S1x5, .f32⟩
  | .local _ .vmem, ⟨3, _⟩ => ⟨S1x5, .f32⟩
  | .local _ .vmem, ⟨4, _⟩ => ⟨S5x10, .f32⟩
  | .local _ .vmem, ⟨5, _⟩ => ⟨S1x10, .f32⟩
  | .local _ .vmem, ⟨6, _⟩ => ⟨S10x10, .f32⟩
  | .local _ .vmem, ⟨7, _⟩ => ⟨S1x10, .f32⟩
  | .local _ .vmem, ⟨8, _⟩ => ⟨S10x10, .f32⟩
  | .local _ .vmem, ⟨9, _⟩ => ⟨S1x10, .f32⟩
  | .local _ .vmem, ⟨10, _⟩ => ⟨S10x10, .f32⟩
  | .local _ .vmem, ⟨11, _⟩ => ⟨S1x10, .f32⟩
  | .local _ .vmem, ⟨12, _⟩ => ⟨S10x10, .f32⟩
  | .local _ .vmem, ⟨13, _⟩ => ⟨S1x10, .f32⟩
  | .local _ .vmem, ⟨14, _⟩ => ⟨S10x10, .f32⟩
  | .local _ .vmem, ⟨15, _⟩ => ⟨S1x10, .f32⟩
  | .local _ .vmem, ⟨16, _⟩ => ⟨S10x10, .f32⟩
  | .local _ .vmem, ⟨17, _⟩ => ⟨S1x10, .f32⟩
  | .local _ .vmem, ⟨18, _⟩ => ⟨S10x5, .f32⟩
  | .local _ .vmem, ⟨19, _⟩ => ⟨S1x5, .f32⟩
  | .local _ .vmem, ⟨20, _⟩ => ⟨S5x1, .f32⟩
  | .local _ .vmem, ⟨21, _⟩ => ⟨S1x1, .f32⟩
  | .local _ .vmem, ⟨22, _⟩ => ⟨S8000x1, .f32⟩
  | .local _ .vmem, ⟨23, _⟩ => ⟨S8000x1, .f32⟩
  | _, _ => ⟨S4000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg21_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem21_1 : DmaSem sig := 23

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S10x10 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S10x10 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x10 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S10x10 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x10 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S10x10 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x10 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S10x5 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x5 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S5x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S8000x1 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

class Facts₀ : Prop where
  transposes_S5x1_S1x5_1_0 : S5x1.Transposes [1, 0] S1x5
  transposes_S10x5_S5x10_1_0 : S10x5.Transposes [1, 0] S5x10
  transposes_S10x10_S10x10_1_0 : S10x10.Transposes [1, 0] S10x10
  transposes_S5x10_S10x5_1_0 : S5x10.Transposes [1, 0] S10x5
  transposes_S1x5_S5x1_1_0 : S1x5.Transposes [1, 0] S5x1
  shapeCasts_S5_S1x5 : S5.ShapeCasts S1x5
  shapeCasts_S10_S1x10 : S10.ShapeCasts S1x10
  shapeCasts_S1_S1x1 : S1.ShapeCasts S1x1
  inb_S8000x1_S8000x1_0_0 : ∀ a, (![0, 0] : Fin 2 → Nat) a + S8000x1.size a ≤ S8000x1.size a
  h_S8000x1 : 0 < S8000x1.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S8000x5 : S1x5.Broadcasts S8000x5
  inb_S5x10_S5x10_0_0 : ∀ a, (![0, 0] : Fin 2 → Nat) a + S5x10.size a ≤ S5x10.size a
  h_S5x10 : 0 < S5x10.numel
  shapeCasts_S5x10_S5x10 : S5x10.ShapeCasts S5x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S8000x10 : S1x10.Broadcasts S8000x10
  inb_S10x10_S10x10_0_0 : ∀ a, (![0, 0] : Fin 2 → Nat) a + S10x10.size a ≤ S10x10.size a
  h_S10x10 : 0 < S10x10.numel
  shapeCasts_S10x10_S10x10 : S10x10.ShapeCasts S10x10
  inb_S10x5_S10x5_0_0 : ∀ a, (![0, 0] : Fin 2 → Nat) a + S10x5.size a ≤ S10x5.size a
  h_S10x5 : 0 < S10x5.numel
  shapeCasts_S10x5_S10x5 : S10x5.ShapeCasts S10x5
  inb_S5x1_S5x1_0_0 : ∀ a, (![0, 0] : Fin 2 → Nat) a + S5x1.size a ≤ S5x1.size a
  h_S5x1 : 0 < S5x1.numel
  shapeCasts_S5x1_S5x1 : S5x1.ShapeCasts S5x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  dot_S8000x1_S1x5_S8000x5_1_0_0_1_n_n_wf : DotDims.WF S8000x1 S1x5 S8000x5 [1] [0] [0] [1] [] []
  dot_S8000x5_S5x10_S8000x10_1_0_0_1_n_n_wf : DotDims.WF S8000x5 S5x10 S8000x10 [1] [0] [0] [1] [] []
  dot_S8000x10_S10x10_S8000x10_1_0_0_1_n_n_wf : DotDims.WF S8000x10 S10x10 S8000x10 [1] [0] [0] [1] [] []
  dot_S8000x10_S10x5_S8000x5_1_0_0_1_n_n_wf : DotDims.WF S8000x10 S10x5 S8000x5 [1] [0] [0] [1] [] []
  dot_S8000x5_S5x1_S8000x1_1_0_0_1_n_n_wf : DotDims.WF S8000x5 S5x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x1.size a ≤ S4000000x1.size a
  hwx0_0 : ∀ i : grid0.Coords, EltTy.bits .f32 = 32 ∨ (Rect.block (s := S4000000x1) S8000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x5.size a ≤ S1x5.size a
  hwx0_1 : ∀ i : grid0.Coords, EltTy.bits .f32 = 32 ∨ (Rect.block (s := S1x5) S1x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x5.size a ≤ S1x5.size a
  hwx0_2 : ∀ i : grid0.Coords, EltTy.bits .f32 = 32 ∨ (Rect.block (s := S1x5) S1x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x10.size a ≤ S5x10.size a
  hwx0_3 : ∀ i : grid0.Coords, EltTy.bits .f32 = 32 ∨ (Rect.block (s := S5x10) S5x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x10.size a ≤ S1x10.size a
  hwx0_4 : ∀ i : grid0.Coords, EltTy.bits .f32 = 32 ∨ (Rect.block (s := S1x10) S1x10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x10.size a ≤ S10x10.size a
  hwx0_5 : ∀ i : grid0.Coords, EltTy.bits .f32 = 32 ∨ (Rect.block (s := S10x10) S10x10.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x10.size a ≤ S1x10.size a
  hwx0_6 : ∀ i : grid0.Coords, EltTy.bits .f32 = 32 ∨ (Rect.block (s := S1x10) S1x10.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S10x10.size a ≤ S10x10.size a
  hwx0_7 : ∀ i : grid0.Coords, EltTy.bits .f32 = 32 ∨ (Rect.block (s := S10x10) S10x10.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x10.size a ≤ S1x10.size a
  hwx0_8 : ∀ i : grid0.Coords, EltTy.bits .f32 = 32 ∨ (Rect.block (s := S1x10) S1x10.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S10x10.size a ≤ S10x10.size a
  hwx0_9 : ∀ i : grid0.Coords, EltTy.bits .f32 = 32 ∨ (Rect.block (s := S10x10) S10x10.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x10.size a ≤ S1x10.size a
  hwx0_10 : ∀ i : grid0.Coords, EltTy.bits .f32 = 32 ∨ (Rect.block (s := S1x10) S1x10.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S10x10.size a ≤ S10x10.size a
  hwx0_11 : ∀ i : grid0.Coords, EltTy.bits .f32 = 32 ∨ (Rect.block (s := S10x10) S10x10.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x10.size a ≤ S1x10.size a
  hwx0_12 : ∀ i : grid0.Coords, EltTy.bits .f32 = 32 ∨ (Rect.block (s := S1x10) S1x10.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S10x10.size a ≤ S10x10.size a
  hwx0_13 : ∀ i : grid0.Coords, EltTy.bits .f32 = 32 ∨ (Rect.block (s := S10x10) S10x10.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x10.size a ≤ S1x10.size a
  hwx0_14 : ∀ i : grid0.Coords, EltTy.bits .f32 = 32 ∨ (Rect.block (s := S1x10) S1x10.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S10x10.size a ≤ S10x10.size a
  hwx0_15 : ∀ i : grid0.Coords, EltTy.bits .f32 = 32 ∨ (Rect.block (s := S10x10) S10x10.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x10.size a ≤ S1x10.size a
  hwx0_16 : ∀ i : grid0.Coords, EltTy.bits .f32 = 32 ∨ (Rect.block (s := S1x10) S1x10.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S10x5.size a ≤ S10x5.size a
  hwx0_17 : ∀ i : grid0.Coords, EltTy.bits .f32 = 32 ∨ (Rect.block (s := S10x5) S10x5.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x5.size a ≤ S1x5.size a
  hwx0_18 : ∀ i : grid0.Coords, EltTy.bits .f32 = 32 ∨ (Rect.block (s := S1x5) S1x5.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S5x1.size a ≤ S5x1.size a
  hwx0_19 : ∀ i : grid0.Coords, EltTy.bits .f32 = 32 ∨ (Rect.block (s := S5x1) S5x1.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x1.size a ≤ S1x1.size a
  hwx0_20 : ∀ i : grid0.Coords, EltTy.bits .f32 = 32 ∨ (Rect.block (s := S1x1) S1x1.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S8000x1.size a ≤ S4000000x1.size a
  hwx0_21 : ∀ i : grid0.Coords, EltTy.bits .f32 = 32 ∨ (Rect.block (s := S4000000x1) S8000x1.size (cc0_transform_21 i) (hinb0_21 i)).WholeWords (EltTy.packing .f32)

variable [Facts₀]

def dot_S8000x1_S1x5_S8000x5_1_0_0_1_n_n : DotDims S8000x1 S1x5 S8000x5 where
  lhsContracting := [1]
  rhsContracting := [0]
  lhsNonContracting := [0]
  rhsNonContracting := [1]
  lhsBatch := []
  rhsBatch := []
  wf := dot_S8000x1_S1x5_S8000x5_1_0_0_1_n_n_wf
def dot_S8000x5_S5x10_S8000x10_1_0_0_1_n_n : DotDims S8000x5 S5x10 S8000x10 where
  lhsContracting := [1]
  rhsContracting := [0]
  lhsNonContracting := [0]
  rhsNonContracting := [1]
  lhsBatch := []
  rhsBatch := []
  wf := dot_S8000x5_S5x10_S8000x10_1_0_0_1_n_n_wf
def dot_S8000x10_S10x10_S8000x10_1_0_0_1_n_n : DotDims S8000x10 S10x10 S8000x10 where
  lhsContracting := [1]
  rhsContracting := [0]
  lhsNonContracting := [0]
  rhsNonContracting := [1]
  lhsBatch := []
  rhsBatch := []
  wf := dot_S8000x10_S10x10_S8000x10_1_0_0_1_n_n_wf
def dot_S8000x10_S10x5_S8000x5_1_0_0_1_n_n : DotDims S8000x10 S10x5 S8000x5 where
  lhsContracting := [1]
  rhsContracting := [0]
  lhsNonContracting := [0]
  rhsNonContracting := [1]
  lhsBatch := []
  rhsBatch := []
  wf := dot_S8000x10_S10x5_S8000x5_1_0_0_1_n_n_wf
def dot_S8000x5_S5x1_S8000x1_1_0_0_1_n_n : DotDims S8000x5 S5x1 S8000x1 where
  lhsContracting := [1]
  rhsContracting := [0]
  lhsNonContracting := [0]
  rhsNonContracting := [1]
  lhsBatch := []
  rhsBatch := []
  wf := dot_S8000x5_S5x1_S8000x1_1_0_0_1_n_n_wf

abbrev win0_0 : Pipeline.Window sig grid0 :=
  Pipeline.Window.ofSpec (Memref.whole main_arg0) S8000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S10x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S10x10.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x10.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S10x10.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S1x10.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S10x10.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v15) S1x10.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6) S10x10.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v16) S1x10.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v7) S10x10.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v17) S1x10.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v8) S10x5.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v18) S1x5.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v9) S5x1.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v19) S1x1.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v20) S8000x1.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

class Facts : Prop extends Facts₀ where

variable [Facts]
-- ==== ReferenceIdeal.lean ====
abbrev S4000000x1 : Shape := ⟨2, ![4000000, 1]⟩
abbrev S5x1 : Shape := ⟨2, ![5, 1]⟩
abbrev S5 : Shape := ⟨1, ![5]⟩
abbrev S10x5 : Shape := ⟨2, ![10, 5]⟩
abbrev S10 : Shape := ⟨1, ![10]⟩
abbrev S10x10 : Shape := ⟨2, ![10, 10]⟩
abbrev S5x10 : Shape := ⟨2, ![5, 10]⟩
abbrev S1x5 : Shape := ⟨2, ![1, 5]⟩
abbrev S1 : Shape := ⟨1, ![1]⟩
abbrev S4000000x5 : Shape := ⟨2, ![4000000, 5]⟩
abbrev S_ : Shape := ⟨0, ![]⟩
abbrev S4000000x10 : Shape := ⟨2, ![4000000, 10]⟩
abbrev S1x10 : Shape := ⟨2, ![1, 10]⟩
abbrev S1x1 : Shape := ⟨2, ![1, 1]⟩

abbrev nBuf : Space → Nat
  | .hbm => 98
  | .vmem => 0
  | .smem => 0
  | _ => 0

abbrev bufTy : (tb : Table) → Fin (tcTables nBuf tb) → BufTy
  | .hbm, ⟨0, _⟩ => ⟨S4000000x1, .f32⟩
  | .hbm, ⟨1, _⟩ => ⟨S5x1, .f32⟩
  | .hbm, ⟨2, _⟩ => ⟨S5, .f32⟩
  | .hbm, ⟨3, _⟩ => ⟨S10x5, .f32⟩
  | .hbm, ⟨4, _⟩ => ⟨S10, .f32⟩
  | .hbm, ⟨5, _⟩ => ⟨S10x10, .f32⟩
  | .hbm, ⟨6, _⟩ => ⟨S10, .f32⟩
  | .hbm, ⟨7, _⟩ => ⟨S10x10, .f32⟩
  | .hbm, ⟨8, _⟩ => ⟨S10, .f32⟩
  | .hbm, ⟨9, _⟩ => ⟨S10x10, .f32⟩
  | .hbm, ⟨10, _⟩ => ⟨S10, .f32⟩
  | .hbm, ⟨11, _⟩ => ⟨S10x10, .f32⟩
  | .hbm, ⟨12, _⟩ => ⟨S10, .f32⟩
  | .hbm, ⟨13, _⟩ => ⟨S10x10, .f32⟩
  | .hbm, ⟨14, _⟩ => ⟨S10, .f32⟩
  | .hbm, ⟨15, _⟩ => ⟨S10x10, .f32⟩
  | .hbm, ⟨16, _⟩ => ⟨S10, .f32⟩
  | .hbm, ⟨17, _⟩ => ⟨S5x10, .f32⟩
  | .hbm, ⟨18, _⟩ => ⟨S5, .f32⟩
  | .hbm, ⟨19, _⟩ => ⟨S1x5, .f32⟩
  | .hbm, ⟨20, _⟩ => ⟨S1, .f32⟩
  | .hbm, ⟨21, _⟩ => ⟨S1x5, .f32⟩
  | .hbm, ⟨22, _⟩ => ⟨S4000000x5, .f32⟩
  | .hbm, ⟨23, _⟩ => ⟨S1x5, .f32⟩
  | .hbm, ⟨24, _⟩ => ⟨S4000000x5, .f32⟩
  | .hbm, ⟨25, _⟩ => ⟨S4000000x5, .f32⟩
  | .hbm, ⟨26, _⟩ => ⟨S_, .f32⟩
  | .hbm, ⟨27, _⟩ => ⟨S4000000x5, .f32⟩
  | .hbm, ⟨28, _⟩ => ⟨S4000000x5, .f32⟩
  | .hbm, ⟨29, _⟩ => ⟨S5x10, .f32⟩
  | .hbm, ⟨30, _⟩ => ⟨S4000000x10, .f32⟩
  | .hbm, ⟨31, _⟩ => ⟨S1x10, .f32⟩
  | .hbm, ⟨32, _⟩ => ⟨S4000000x10, .f32⟩
  | .hbm, ⟨33, _⟩ => ⟨S4000000x10, .f32⟩
  | .hbm, ⟨34, _⟩ => ⟨S_, .f32⟩
  | .hbm, ⟨35, _⟩ => ⟨S4000000x10, .f32⟩
  | .hbm, ⟨36, _⟩ => ⟨S4000000x10, .f32⟩
  | .hbm, ⟨37, _⟩ => ⟨S10x10, .f32⟩
  | .hbm, ⟨38, _⟩ => ⟨S4000000x10, .f32⟩
  | .hbm, ⟨39, _⟩ => ⟨S1x10, .f32⟩
  | .hbm, ⟨40, _⟩ => ⟨S4000000x10, .f32⟩
  | .hbm, ⟨41, _⟩ => ⟨S4000000x10, .f32⟩
  | .hbm, ⟨42, _⟩ => ⟨S_, .f32⟩
  | .hbm, ⟨43, _⟩ => ⟨S4000000x10, .f32⟩
  | .hbm, ⟨44, _⟩ => ⟨S4000000x10, .f32⟩
  | .hbm, ⟨45, _⟩ => ⟨S10x10, .f32⟩
  | .hbm, ⟨46, _⟩ => ⟨S4000000x10, .f32⟩
  | .hbm, ⟨47, _⟩ => ⟨S1x10, .f32⟩
  | .hbm, ⟨48, _⟩ => ⟨S4000000x10, .f32⟩
  | .hbm, ⟨49, _⟩ => ⟨S4000000x10, .f32⟩
  | .hbm, ⟨50, _⟩ => ⟨S_, .f32⟩
  | .hbm, ⟨51, _⟩ => ⟨S4000000x10, .f32⟩
  | .hbm, ⟨52, _⟩ => ⟨S4000000x10, .f32⟩
  | .hbm, ⟨53, _⟩ => ⟨S10x10, .f32⟩
  | .hbm, ⟨54, _⟩ => ⟨S4000000x10, .f32⟩
  | .hbm, ⟨55, _⟩ => ⟨S1x10, .f32⟩
  | .hbm, ⟨56, _⟩ => ⟨S4000000x10, .f32⟩
  | .hbm, ⟨57, _⟩ => ⟨S4000000x10, .f32⟩
  | .hbm, ⟨58, _⟩ => ⟨S_, .f32⟩
  | .hbm, ⟨59, _⟩ => ⟨S4000000x10, .f32⟩
  | .hbm, ⟨60, _⟩ => ⟨S4000000x10, .f32⟩
  | .hbm, ⟨61, _⟩ => ⟨S10x10, .f32⟩
  | .hbm, ⟨62, _⟩ => ⟨S4000000x10, .f32⟩
  | .hbm, ⟨63, _⟩ => ⟨S1x10, .f32⟩
  | .hbm, ⟨64, _⟩ => ⟨S4000000x10, .f32⟩
  | .hbm, ⟨65, _⟩ => ⟨S4000000x10, .f32⟩
  | .hbm, ⟨66, _⟩ => ⟨S_, .f32⟩
  | .hbm, ⟨67, _⟩ => ⟨S4000000x10, .f32⟩
  | .hbm, ⟨68, _⟩ => ⟨S4000000x10, .f32⟩
  | .hbm, ⟨69, _⟩ => ⟨S10x10, .f32⟩
  | .hbm, ⟨70, _⟩ => ⟨S4000000x10, .f32⟩
  | .hbm, ⟨71, _⟩ => ⟨S1x10, .f32⟩
  | .hbm, ⟨72, _⟩ => ⟨S4000000x10, .f32⟩
  | .hbm, ⟨73, _⟩ => ⟨S4000000x10, .f32⟩
  | .hbm, ⟨74, _⟩ => ⟨S_, .f32⟩
  | .hbm, ⟨75, _⟩ => ⟨S4000000x10, .f32⟩
  | .hbm, ⟨76, _⟩ => ⟨S4000000x10, .f32⟩
  | .hbm, ⟨77, _⟩ => ⟨S10x10, .f32⟩
  | .hbm, ⟨78, _⟩ => ⟨S4000000x10, .f32⟩
  | .hbm, ⟨79, _⟩ => ⟨S1x10, .f32⟩
  | .hbm, ⟨80, _⟩ => ⟨S4000000x10, .f32⟩
  | .hbm, ⟨81, _⟩ => ⟨S4000000x10, .f32⟩
  | .hbm, ⟨82, _⟩ => ⟨S_, .f32⟩
  | .hbm, ⟨83, _⟩ => ⟨S4000000x10, .f32⟩
  | .hbm, ⟨84, _⟩ => ⟨S4000000x10, .f32⟩
  | .hbm, ⟨85, _⟩ => ⟨S10x5, .f32⟩
  | .hbm, ⟨86, _⟩ => ⟨S4000000x5, .f32⟩
  | .hbm, ⟨87, _⟩ => ⟨S1x5, .f32⟩
  | .hbm, ⟨88, _⟩ => ⟨S4000000x5, .f32⟩
  | .hbm, ⟨89, _⟩ => ⟨S4000000x5, .f32⟩
  | .hbm, ⟨90, _⟩ => ⟨S_, .f32⟩
  | .hbm, ⟨91, _⟩ => ⟨S4000000x5, .f32⟩
  | .hbm, ⟨92, _⟩ => ⟨S4000000x5, .f32⟩
  | .hbm, ⟨93, _⟩ => ⟨S5x1, .f32⟩
  | .hbm, ⟨94, _⟩ => ⟨S4000000x1, .f32⟩
  | .hbm, ⟨95, _⟩ => ⟨S1x1, .f32⟩
  | .hbm, ⟨96, _⟩ => ⟨S4000000x1, .f32⟩
  | .hbm, ⟨97, _⟩ => ⟨S4000000x1, .f32⟩
  | _, _ => ⟨S4000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_call0_cst : Ref sig .tc := ⟨.hbm, 26, rfl⟩
abbrev main_call0_v0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_call1_cst : Ref sig .tc := ⟨.hbm, 34, rfl⟩
abbrev main_call1_v0 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_call2_cst : Ref sig .tc := ⟨.hbm, 42, rfl⟩
abbrev main_call2_v0 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_call3_cst : Ref sig .tc := ⟨.hbm, 50, rfl⟩
abbrev main_call3_v0 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_call4_cst : Ref sig .tc := ⟨.hbm, 58, rfl⟩
abbrev main_call4_v0 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_call5_cst : Ref sig .tc := ⟨.hbm, 66, rfl⟩
abbrev main_call5_v0 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_call6_cst : Ref sig .tc := ⟨.hbm, 74, rfl⟩
abbrev main_call6_v0 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_call7_cst : Ref sig .tc := ⟨.hbm, 82, rfl⟩
abbrev main_call7_v0 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_call8_cst : Ref sig .tc := ⟨.hbm, 90, rfl⟩
abbrev main_call8_v0 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩

abbrev nD : Nat := 1
abbrev τ : Topo := Topo.v7x

variable {F : FTy → Type} [FloatOps F]

class Facts₀ : Prop where
  transposes_S5x1_S1x5_1_0 : S5x1.Transposes [1, 0] S1x5
  bcast_S5_S1x5_1 : S5.BroadcastsInDim S1x5 (![1] : Fin 1 → Fin S1x5.rank)
  bcast_S1x5_S4000000x5_0_1 : S1x5.BroadcastsInDim S4000000x5 (![0, 1] : Fin 2 → Fin S4000000x5.rank)
  bcast_S_S4000000x5 : S_.BroadcastsInDim S4000000x5 (![] : Fin 0 → Fin S4000000x5.rank)
  transposes_S10x5_S5x10_1_0 : S10x5.Transposes [1, 0] S5x10
  bcast_S10_S1x10_1 : S10.BroadcastsInDim S1x10 (![1] : Fin 1 → Fin S1x10.rank)
  bcast_S1x10_S4000000x10_0_1 : S1x10.BroadcastsInDim S4000000x10 (![0, 1] : Fin 2 → Fin S4000000x10.rank)
  bcast_S_S4000000x10 : S_.BroadcastsInDim S4000000x10 (![] : Fin 0 → Fin S4000000x10.rank)
  transposes_S10x10_S10x10_1_0 : S10x10.Transposes [1, 0] S10x10
  transposes_S5x10_S10x5_1_0 : S5x10.Transposes [1, 0] S10x5
  transposes_S1x5_S5x1_1_0 : S1x5.Transposes [1, 0] S5x1
  bcast_S1_S1x1_1 : S1.BroadcastsInDim S1x1 (![1] : Fin 1 → Fin S1x1.rank)
  bcast_S1x1_S4000000x1_0_1 : S1x1.BroadcastsInDim S4000000x1 (![0, 1] : Fin 2 → Fin S4000000x1.rank)
  dot_S4000000x1_S1x5_S4000000x5_1_0_0_1_n_n_wf : DotDims.WF S4000000x1 S1x5 S4000000x5 [1] [0] [0] [1] [] []
  dot_S4000000x5_S5x10_S4000000x10_1_0_0_1_n_n_wf : DotDims.WF S4000000x5 S5x10 S4000000x10 [1] [0] [0] [1] [] []
  dot_S4000000x10_S10x10_S4000000x10_1_0_0_1_n_n_wf : DotDims.WF S4000000x10 S10x10 S4000000x10 [1] [0] [0] [1] [] []
  dot_S4000000x10_S10x5_S4000000x5_1_0_0_1_n_n_wf : DotDims.WF S4000000x10 S10x5 S4000000x5 [1] [0] [0] [1] [] []
  dot_S4000000x5_S5x1_S4000000x1_1_0_0_1_n_n_wf : DotDims.WF S4000000x5 S5x1 S4000000x1 [1] [0] [0] [1] [] []

variable [Facts₀]

def dot_S4000000x1_S1x5_S4000000x5_1_0_0_1_n_n : DotDims S4000000x1 S1x5 S4000000x5 where
  lhsContracting := [1]
  rhsContracting := [0]
  lhsNonContracting := [0]
  rhsNonContracting := [1]
  lhsBatch := []
  rhsBatch := []
  wf := dot_S4000000x1_S1x5_S4000000x5_1_0_0_1_n_n_wf
def dot_S4000000x5_S5x10_S4000000x10_1_0_0_1_n_n : DotDims S4000000x5 S5x10 S4000000x10 where
  lhsContracting := [1]
  rhsContracting := [0]
  lhsNonContracting := [0]
  rhsNonContracting := [1]
  lhsBatch := []
  rhsBatch := []
  wf := dot_S4000000x5_S5x10_S4000000x10_1_0_0_1_n_n_wf
def dot_S4000000x10_S10x10_S4000000x10_1_0_0_1_n_n : DotDims S4000000x10 S10x10 S4000000x10 where
  lhsContracting := [1]
  rhsContracting := [0]
  lhsNonContracting := [0]
  rhsNonContracting := [1]
  lhsBatch := []
  rhsBatch := []
  wf := dot_S4000000x10_S10x10_S4000000x10_1_0_0_1_n_n_wf
def dot_S4000000x10_S10x5_S4000000x5_1_0_0_1_n_n : DotDims S4000000x10 S10x5 S4000000x5 where
  lhsContracting := [1]
  rhsContracting := [0]
  lhsNonContracting := [0]
  rhsNonContracting := [1]
  lhsBatch := []
  rhsBatch := []
  wf := dot_S4000000x10_S10x5_S4000000x5_1_0_0_1_n_n_wf
def dot_S4000000x5_S5x1_S4000000x1_1_0_0_1_n_n : DotDims S4000000x5 S5x1 S4000000x1 where
  lhsContracting := [1]
  rhsContracting := [0]
  lhsNonContracting := [0]
  rhsNonContracting := [1]
  lhsBatch := []
  rhsBatch := []
  wf := dot_S4000000x5_S5x1_S4000000x1_1_0_0_1_n_n_wf

class Facts : Prop extends Facts₀ where

variable [Facts]
-- ==== Proof.Mlp.lean ====
/-
  A perceptron of ten dense layers, 1 → 5 → 10 → 10 → 10 → 10 → 10 → 10 → 10 → 5 → 1, read one input row at a time, on the
  extended reals. A dense layer sends a row `h` of `K` activations to the `N` numbers `(∑ k, h k · W[j, k]) + b[j]`; the first
  nine layers are followed by the rectifier `max · 0`, the tenth is not. Every row of the input array goes through the same
  ten layers, so the whole result is `row ↦ net (row of x)`.
  The weights appear in two spellings: `W[j, k]` with a bias vector `b[j]` (`dense`), and the transposed matrix `Wt[k, j]`
  with the bias as a one-row matrix `b2[0, j]` (`denseT`); the two layers are one function when `Wt` is `W` transposed and
  `b2` is `b` with a unit axis in front (`MlpOps.denseT_transpose`).
-/
import Idealize.ShloMosaic.PureOps.Ideal
import Idealize.ShloMosaic.Lib.ValueIdx

noncomputable section

namespace Cert.Mlp

open Idealize.ShloMosaic Idealize.ShloMosaic.ValueIdx

/-- The float zero the rectifier compares with (the all-zero word, left unevaluated: both programs spell it so). -/
abbrev zero32 : EReal := Ideal.ofBits .f32 0x00000000#32

/-- Row `p` of a matrix, as a function of the column. -/
def rowOf {R N : ℕ} (h : (⟨2, ![R, N]⟩ : Shape).Idx → EReal) (p : Fin R) : Fin N → EReal := fun j => h (ix2 p j)

/-- A dense layer on a row: `j ↦ (∑ k, h k · W[j, k]) + b[j]`. -/
def dense {K N : ℕ} (W : (⟨2, ![N, K]⟩ : Shape).Idx → EReal) (b : (⟨1, ![N]⟩ : Shape).Idx → EReal) (h : Fin K → EReal) :
    Fin N → EReal := fun j => (∑ k : Fin K, h k * W (ix2 j k)) + b (ix1 j)

/-- The same layer with the weights stored transposed and the bias as a one-row matrix: `j ↦ (∑ k, h k · Wt[k, j]) + b2[0, j]`. -/
def denseT {K N : ℕ} (Wt : (⟨2, ![K, N]⟩ : Shape).Idx → EReal) (b2 : (⟨2, ![1, N]⟩ : Shape).Idx → EReal) (h : Fin K → EReal) :
    Fin N → EReal := fun j => (∑ k : Fin K, h k * Wt (ix2 k j)) + b2 (ix2 (0 : Fin 1) j)

/-- The rectifier on a row. -/
def relu {N : ℕ} (v : Fin N → EReal) : Fin N → EReal := fun j => max (v j) zero32

/-- The ten layers on one row, weights `W[j, k]` and bias vectors. -/
def net (W1 : (⟨2, ![5, 1]⟩ : Shape).Idx → EReal) (b1 : (⟨1, ![5]⟩ : Shape).Idx → EReal)
    (W2 : (⟨2, ![10, 5]⟩ : Shape).Idx → EReal) (b2 : (⟨1, ![10]⟩ : Shape).Idx → EReal)
    (W3 : (⟨2, ![10, 10]⟩ : Shape).Idx → EReal) (b3 : (⟨1, ![10]⟩ : Shape).Idx → EReal)
    (W4 : (⟨2, ![10, 10]⟩ : Shape).Idx → EReal) (b4 : (⟨1, ![10]⟩ : Shape).Idx → EReal)
    (W5 : (⟨2, ![10, 10]⟩ : Shape).Idx → EReal) (b5 : (⟨1, ![10]⟩ : Shape).Idx → EReal)
    (W6 : (⟨2, ![10, 10]⟩ : Shape).Idx → EReal) (b6 : (⟨1, ![10]⟩ : Shape).Idx → EReal)
    (W7 : (⟨2, ![10, 10]⟩ : Shape).Idx → EReal) (b7 : (⟨1, ![10]⟩ : Shape).Idx → EReal)
    (W8 : (⟨2, ![10, 10]⟩ : Shape).Idx → EReal) (b8 : (⟨1, ![10]⟩ : Shape).Idx → EReal)
    (W9 : (⟨2, ![5, 10]⟩ : Shape).Idx → EReal) (b9 : (⟨1, ![5]⟩ : Shape).Idx → EReal)
    (W10 : (⟨2, ![1, 5]⟩ : Shape).Idx → EReal) (b10 : (⟨1, ![1]⟩ : Shape).Idx → EReal)
    (h : Fin 1 → EReal) : Fin 1 → EReal :=
  dense W10 b10 (relu (dense W9 b9 (relu (dense W8 b8 (relu (dense W7 b7 (relu (dense W6 b6 (relu (dense W5 b5
    (relu (dense W4 b4 (relu (dense W3 b3 (relu (dense W2 b2 (relu (dense W1 b1 h))))))))))))))))))

/-- The ten layers on one row, weights stored transposed and biases as one-row matrices. -/
def netT (T1 : (⟨2, ![1, 5]⟩ : Shape).Idx → EReal) (c1 : (⟨2, ![1, 5]⟩ : Shape).Idx → EReal)
    (T2 : (⟨2, ![5, 10]⟩ : Shape).Idx → EReal) (c2 : (⟨2, ![1, 10]⟩ : Shape).Idx → EReal)
    (T3 : (⟨2, ![10, 10]⟩ : Shape).Idx → EReal) (c3 : (⟨2, ![1, 10]⟩ : Shape).Idx → EReal)
    (T4 : (⟨2, ![10, 10]⟩ : Shape).Idx → EReal) (c4 : (⟨2, ![1, 10]⟩ : Shape).Idx → EReal)
    (T5 : (⟨2, ![10, 10]⟩ : Shape).Idx → EReal) (c5 : (⟨2, ![1, 10]⟩ : Shape).Idx → EReal)
    (T6 : (⟨2, ![10, 10]⟩ : Shape).Idx → EReal) (c6 : (⟨2, ![1, 10]⟩ : Shape).Idx → EReal)
    (T7 : (⟨2, ![10, 10]⟩ : Shape).Idx → EReal) (c7 : (⟨2, ![1, 10]⟩ : Shape).Idx → EReal)
    (T8 : (⟨2, ![10, 10]⟩ : Shape).Idx → EReal) (c8 : (⟨2, ![1, 10]⟩ : Shape).Idx → EReal)
    (T9 : (⟨2, ![10, 5]⟩ : Shape).Idx → EReal) (c9 : (⟨2, ![1, 5]⟩ : Shape).Idx → EReal)
    (T10 : (⟨2, ![5, 1]⟩ : Shape).Idx → EReal) (c10 : (⟨2, ![1, 1]⟩ : Shape).Idx → EReal)
    (h : Fin 1 → EReal) : Fin 1 → EReal :=
  denseT T10 c10 (relu (denseT T9 c9 (relu (denseT T8 c8 (relu (denseT T7 c7 (relu (denseT T6 c6 (relu (denseT T5 c5
    (relu (denseT T4 c4 (relu (denseT T3 c3 (relu (denseT T2 c2 (relu (denseT T1 c1 h))))))))))))))))))

/-- The whole result array over `R` input rows: entry `(r, q)` is the net of row `r` of `x`, at its one output `q`. -/
def G {R : ℕ} (x : (⟨2, ![R, 1]⟩ : Shape).Idx → EReal)
    (W1 : (⟨2, ![5, 1]⟩ : Shape).Idx → EReal) (b1 : (⟨1, ![5]⟩ : Shape).Idx → EReal)
    (W2 : (⟨2, ![10, 5]⟩ : Shape).Idx → EReal) (b2 : (⟨1, ![10]⟩ : Shape).Idx → EReal)
    (W3 : (⟨2, ![10, 10]⟩ : Shape).Idx → EReal) (b3 : (⟨1, ![10]⟩ : Shape).Idx → EReal)
    (W4 : (⟨2, ![10, 10]⟩ : Shape).Idx → EReal) (b4 : (⟨1, ![10]⟩ : Shape).Idx → EReal)
    (W5 : (⟨2, ![10, 10]⟩ : Shape).Idx → EReal) (b5 : (⟨1, ![10]⟩ : Shape).Idx → EReal)
    (W6 : (⟨2, ![10, 10]⟩ : Shape).Idx → EReal) (b6 : (⟨1, ![10]⟩ : Shape).Idx → EReal)
    (W7 : (⟨2, ![10, 10]⟩ : Shape).Idx → EReal) (b7 : (⟨1, ![10]⟩ : Shape).Idx → EReal)
    (W8 : (⟨2, ![10, 10]⟩ : Shape).Idx → EReal) (b8 : (⟨1, ![10]⟩ : Shape).Idx → EReal)
    (W9 : (⟨2, ![5, 10]⟩ : Shape).Idx → EReal) (b9 : (⟨1, ![5]⟩ : Shape).Idx → EReal)
    (W10 : (⟨2, ![1, 5]⟩ : Shape).Idx → EReal) (b10 : (⟨1, ![1]⟩ : Shape).Idx → EReal) :
    (⟨2, ![R, 1]⟩ : Shape).Idx → EReal :=
  fun i => net W1 b1 W2 b2 W3 b3 W4 b4 W5 b5 W6 b6 W7 b7 W8 b8 W9 b9 W10 b10
    (rowOf x (⟨(i 0).val, idx2_lt0 i⟩ : Fin R)) (⟨(i 1).val, idx2_lt1 i⟩ : Fin 1)

/-- At an index written by its coordinates. -/
theorem G_ix2 {R : ℕ} (x : (⟨2, ![R, 1]⟩ : Shape).Idx → EReal)
    (W1 : (⟨2, ![5, 1]⟩ : Shape).Idx → EReal) (b1 : (⟨1, ![5]⟩ : Shape).Idx → EReal)
    (W2 : (⟨2, ![10, 5]⟩ : Shape).Idx → EReal) (b2 : (⟨1, ![10]⟩ : Shape).Idx → EReal)
    (W3 : (⟨2, ![10, 10]⟩ : Shape).Idx → EReal) (b3 : (⟨1, ![10]⟩ : Shape).Idx → EReal)
    (W4 : (⟨2, ![10, 10]⟩ : Shape).Idx → EReal) (b4 : (⟨1, ![10]⟩ : Shape).Idx → EReal)
    (W5 : (⟨2, ![10, 10]⟩ : Shape).Idx → EReal) (b5 : (⟨1, ![10]⟩ : Shape).Idx → EReal)
    (W6 : (⟨2, ![10, 10]⟩ : Shape).Idx → EReal) (b6 : (⟨1, ![10]⟩ : Shape).Idx → EReal)
    (W7 : (⟨2, ![10, 10]⟩ : Shape).Idx → EReal) (b7 : (⟨1, ![10]⟩ : Shape).Idx → EReal)
    (W8 : (⟨2, ![10, 10]⟩ : Shape).Idx → EReal) (b8 : (⟨1, ![10]⟩ : Shape).Idx → EReal)
    (W9 : (⟨2, ![5, 10]⟩ : Shape).Idx → EReal) (b9 : (⟨1, ![5]⟩ : Shape).Idx → EReal)
    (W10 : (⟨2, ![1, 5]⟩ : Shape).Idx → EReal) (b10 : (⟨1, ![1]⟩ : Shape).Idx → EReal) (r : Fin R) (q : Fin 1) :
    G x W1 b1 W2 b2 W3 b3 W4 b4 W5 b5 W6 b6 W7 b7 W8 b8 W9 b9 W10 b10 (ix2 r q)
      = net W1 b1 W2 b2 W3 b3 W4 b4 W5 b5 W6 b6 W7 b7 W8 b8 W9 b9 W10 b10 (rowOf x r) q := rfl

end Cert.Mlp

end
-- ==== Proof.MlpOps.lean ====
/-
  The vector operations a dense layer is printed with, read at one row, on the extended reals.
  A matrix product into a zero accumulator, read at `(p, j)`, is `∑ k, lhs[p, k] · rhs[k, j]` (`matmul_row`: the contraction's
  index has one coordinate, so the sum over it is a sum over `Fin K`); a one-row bias broadcast down the rows is that row at
  every `p` (`bias_row`); so a product plus the broadcast bias is, row by row, the transposed-weights layer `denseT` of the
  operand's row (`layer_row`), and the maximum with a splat of the zero word is the rectifier of the row (`relu_row`). Last,
  the transposed-weights layer of `W` transposed and `b` with a unit axis in front is the layer of `W` and `b`
  (`denseT_transpose`): `(Wᵀ)[k, j] = W[j, k]`.
-/
import proofs.«140222_j18605798326828_1_alg».proof.Proof.Mlp
import Idealize.ShloMosaic.PureOps.Ideal.Laws
import Idealize.ShloMosaic.Lib.ValueIdx
import Idealize.ShloMosaic.Lib.ValueLayout
import Idealize.ShloMosaic.Lib.Pipeline.Value

noncomputable section

namespace Cert.MlpOps

open Idealize.ShloMosaic Idealize.ShloMosaic.ValueIdx Cert.Mlp

/-- A product of an `[R, K]` by a `[K, N]` matrix into the zero accumulator, at `(p, j)`: the sum over the one contracted
    axis. The six hypotheses are the dimension numbers' arithmetic (one contracted axis of extent `K`; which coordinate of
    each operand's index is the output's and which the contraction's), decided per record where the lemma is used. -/
theorem matmul_row {R K N : ℕ} (d : DotDims ⟨2, ![R, K]⟩ ⟨2, ![K, N]⟩ ⟨2, ![R, N]⟩)
    (hr : d.contr.rank = 1) (hs : d.contr.size ⟨0, by omega⟩ = K)
    (hl0 : ∀ (i : (⟨2, ![R, N]⟩ : Shape).Idx) (q : d.contr.Idx), (d.lhsIdx i q 0).val = (i 0).val)
    (hl1 : ∀ (i : (⟨2, ![R, N]⟩ : Shape).Idx) (q : d.contr.Idx), (d.lhsIdx i q 1).val = (q ⟨0, by omega⟩).val)
    (hr0 : ∀ (i : (⟨2, ![R, N]⟩ : Shape).Idx) (q : d.contr.Idx), (d.rhsIdx i q 0).val = (q ⟨0, by omega⟩).val)
    (hr1 : ∀ (i : (⟨2, ![R, N]⟩ : Shape).Idx) (q : d.contr.Idx), (d.rhsIdx i q 1).val = (i 1).val)
    (prec : Option ContractPrecision) (lhs : FVec Ideal ⟨2, ![R, K]⟩ .f32) (rhs : FVec Ideal ⟨2, ![K, N]⟩ .f32)
    (p : Fin R) (j : Fin N) :
    matmul d prec lhs rhs (constant ⟨2, ![R, N]⟩ .f32 0x00000000#32) (ix2 p j) = ∑ k : Fin K, lhs (ix2 p k) * rhs (ix2 k j) := by
  refine (Ideal.matmul_constant_zero_apply d prec lhs rhs (ix2 p j)).trans ?_
  rw [← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

/-- A one-row bias, cast to its own shape and broadcast down `R` rows, at `(p, j)`: the row's entry `j`. -/
theorem bias_row {R N : ℕ} (bb : (⟨2, ![1, N]⟩ : Shape).Idx → EReal) (hc : (⟨2, ![1, N]⟩ : Shape).ShapeCasts ⟨2, ![1, N]⟩)
    (hb : (⟨2, ![1, N]⟩ : Shape).Broadcasts ⟨2, ![R, N]⟩) (p : Fin R) (j : Fin N) :
    broadcastTo ⟨2, ![R, N]⟩ (shapeCast ⟨2, ![1, N]⟩ bb hc) hb (ix2 p j) = bb (ix2 (0 : Fin 1) j) := by
  rw [shapeCast_self]
  exact broadcastTo_1b_ab_apply bb hb p j

/-- A dense layer as printed — the product of the activations with the (re-cast) transposed weights into a zero
    accumulator, plus the bias row broadcast down the rows — is, at row `p`, `denseT` of the activations' row `p`. -/
theorem layer_row {R K N : ℕ} (d : DotDims ⟨2, ![R, K]⟩ ⟨2, ![K, N]⟩ ⟨2, ![R, N]⟩)
    (hr : d.contr.rank = 1) (hs : d.contr.size ⟨0, by omega⟩ = K)
    (hl0 : ∀ (i : (⟨2, ![R, N]⟩ : Shape).Idx) (q : d.contr.Idx), (d.lhsIdx i q 0).val = (i 0).val)
    (hl1 : ∀ (i : (⟨2, ![R, N]⟩ : Shape).Idx) (q : d.contr.Idx), (d.lhsIdx i q 1).val = (q ⟨0, by omega⟩).val)
    (hr0 : ∀ (i : (⟨2, ![R, N]⟩ : Shape).Idx) (q : d.contr.Idx), (d.rhsIdx i q 0).val = (q ⟨0, by omega⟩).val)
    (hr1 : ∀ (i : (⟨2, ![R, N]⟩ : Shape).Idx) (q : d.contr.Idx), (d.rhsIdx i q 1).val = (i 1).val)
    (prec : Option ContractPrecision) (h : FVec Ideal ⟨2, ![R, K]⟩ .f32) (wt : FVec Ideal ⟨2, ![K, N]⟩ .f32)
    (hw : (⟨2, ![K, N]⟩ : Shape).ShapeCasts ⟨2, ![K, N]⟩)
    (bb : FVec Ideal ⟨2, ![1, N]⟩ .f32) (hc : (⟨2, ![1, N]⟩ : Shape).ShapeCasts ⟨2, ![1, N]⟩)
    (hb : (⟨2, ![1, N]⟩ : Shape).Broadcasts ⟨2, ![R, N]⟩) (p : Fin R) :
    rowOf (addf (matmul d prec h (shapeCast ⟨2, ![K, N]⟩ wt hw) (constant ⟨2, ![R, N]⟩ .f32 0x00000000#32))
        (broadcastTo ⟨2, ![R, N]⟩ (shapeCast ⟨2, ![1, N]⟩ bb hc) hb)) p
      = denseT wt bb (rowOf h p) := by
  funext j
  show matmul d prec h (shapeCast ⟨2, ![K, N]⟩ wt hw) (constant ⟨2, ![R, N]⟩ .f32 0x00000000#32) (ix2 p j)
      + broadcastTo ⟨2, ![R, N]⟩ (shapeCast ⟨2, ![1, N]⟩ bb hc) hb (ix2 p j) = _
  rw [matmul_row d hr hs hl0 hl1 hr0 hr1, bias_row, shapeCast_self]
  rfl

/-- The maximum with a splat of the zero word is, at row `p`, the rectifier of row `p`. -/
theorem relu_row {R N : ℕ} (v : FVec Ideal ⟨2, ![R, N]⟩ .f32) (p : Fin R) :
    rowOf (maximumf v (broadcast ⟨2, ![R, N]⟩ (Scalar.ofBits (F := Ideal) .f32 0x00000000#32))) p = relu (rowOf v p) := rfl

/-- `(Wᵀ)[k, j] = W[j, k]`, and the bias with a unit axis in front has `b[j]` at `(0, j)`: the transposed-weights layer of
    these is the layer of `W` and `b`. -/
theorem denseT_transpose {K N : ℕ} (W : (⟨2, ![N, K]⟩ : Shape).Idx → EReal) (b : (⟨1, ![N]⟩ : Shape).Idx → EReal)
    (ht : (⟨2, ![N, K]⟩ : Shape).Transposes [1, 0] ⟨2, ![K, N]⟩) (hs : (⟨1, ![N]⟩ : Shape).ShapeCasts ⟨2, ![1, N]⟩) :
    denseT (transpose ⟨2, ![K, N]⟩ [1, 0] W ht) (shapeCast ⟨2, ![1, N]⟩ b hs) = dense W b := by
  funext h j
  show (∑ k : Fin K, h k * transpose ⟨2, ![K, N]⟩ [1, 0] W ht (ix2 k j)) + shapeCast ⟨2, ![1, N]⟩ b hs (ix2 (0 : Fin 1) j)
      = (∑ k : Fin K, h k * W (ix2 j k)) + b (ix1 j)
  rw [shapeCast_a_1a_apply]
  refine congrArg (· + b (ix1 j)) (Finset.sum_congr rfl fun k _ => ?_)
  rw [transpose_ix2_apply]

end Cert.MlpOps

end
-- ==== Proof.KernelRow.lean ====
/-
  The kernel body's one stored value, read at a row of its block. The body is ten dense layers in a row on the 8000 rows of
  an input block: each layer multiplies the activations `[8000, K]` by the transposed weights `[K, N]` into a zero
  accumulator, adds the bias row `[1, N]` broadcast down the rows and, for the first nine, takes the maximum with zero. No
  operation mixes rows, so row `p` of the stored value is the ten layers (in the transposed spelling, `Mlp.netT`) of row
  `p` of the input block. The five matrix-product shapes that occur (1→5, 5→10, 10→10, 10→5, 5→1) are each read once as a sum
  over the contracted axis; the dimension numbers' arithmetic is decided per shape. Last (`block_value`), with the weight and bias
  blocks being the arguments' transposed weights and re-cast biases, that row is the matching row of `Mlp.G`.
-/
import proofs.«140222_j18605798326828_1_alg».proof.Proof.Gen.KernelIdeal.Skeleton
import proofs.«140222_j18605798326828_1_alg».proof.Proof.Mlp
import proofs.«140222_j18605798326828_1_alg».proof.Proof.MlpOps
import Idealize.ShloMosaic.PureOps.Ideal.Laws
import Idealize.ShloMosaic.Lib.ValueIdx

noncomputable section

namespace Cert.KernelIdeal.Row

open Cert.KernelIdeal Cert.KernelIdeal.Gen Idealize.ShloMosaic Idealize.ShloMosaic.ValueIdx Cert.Mlp Cert.MlpOps

/-! ### The product of `[8000, 1]` activations with `[1, 5]` weights -/

/-- The output's row coordinate is the left operand's. -/
theorem lhs_row_1_5 (i : S8000x5.Idx) (q : dot_S8000x1_S1x5_S8000x5_1_0_0_1_n_n.contr.Idx) : (dot_S8000x1_S1x5_S8000x5_1_0_0_1_n_n.lhsIdx i q 0).val = (i 0).val := by
  unfold DotDims.lhsIdx
  rw [dif_neg (show ¬(0 : Fin S8000x1.rank) ∈ dot_S8000x1_S1x5_S8000x5_1_0_0_1_n_n.lhsBatch by decide), dif_pos (show (0 : Fin S8000x1.rank) ∈ dot_S8000x1_S1x5_S8000x5_1_0_0_1_n_n.lhsNonContracting by decide)]
  rfl

/-- The output's column coordinate is the right operand's. -/
theorem rhs_col_1_5 (i : S8000x5.Idx) (q : dot_S8000x1_S1x5_S8000x5_1_0_0_1_n_n.contr.Idx) : (dot_S8000x1_S1x5_S8000x5_1_0_0_1_n_n.rhsIdx i q 1).val = (i 1).val := by
  unfold DotDims.rhsIdx
  rw [dif_neg (show ¬(1 : Fin S1x5.rank) ∈ dot_S8000x1_S1x5_S8000x5_1_0_0_1_n_n.rhsBatch by decide), dif_pos (show (1 : Fin S1x5.rank) ∈ dot_S8000x1_S1x5_S8000x5_1_0_0_1_n_n.rhsNonContracting by decide)]
  rfl

/-- The layer 1 → 5 as printed, at row `p` of the block. -/
theorem layer_1_5 (prec : Option ContractPrecision) (h : FVec Ideal S8000x1 .f32) (wt : FVec Ideal S1x5 .f32)
    (hw : S1x5.ShapeCasts S1x5) (bb : FVec Ideal S1x5 .f32) (hc : S1x5.ShapeCasts S1x5) (hb : S1x5.Broadcasts S8000x5)
    (p : Fin 8000) :
    rowOf (addf (matmul dot_S8000x1_S1x5_S8000x5_1_0_0_1_n_n prec h (shapeCast S1x5 wt hw) (constant S8000x5 .f32 0x00000000#32))
        (broadcastTo S8000x5 (shapeCast S1x5 bb hc) hb)) p
      = denseT wt bb (rowOf h p) :=
  layer_row dot_S8000x1_S1x5_S8000x5_1_0_0_1_n_n rfl rfl lhs_row_1_5
    (fun i q => dot_S8000x1_S1x5_S8000x5_1_0_0_1_n_n.lhsIdx_val_of_single rfl i q) (fun i q => dot_S8000x1_S1x5_S8000x5_1_0_0_1_n_n.rhsIdx_val_of_single rfl i q)
    rhs_col_1_5 prec h wt hw bb hc hb p

/-! ### The product of `[8000, 5]` activations with `[5, 10]` weights -/

/-- The output's row coordinate is the left operand's. -/
theorem lhs_row_5_10 (i : S8000x10.Idx) (q : dot_S8000x5_S5x10_S8000x10_1_0_0_1_n_n.contr.Idx) : (dot_S8000x5_S5x10_S8000x10_1_0_0_1_n_n.lhsIdx i q 0).val = (i 0).val := by
  unfold DotDims.lhsIdx
  rw [dif_neg (show ¬(0 : Fin S8000x5.rank) ∈ dot_S8000x5_S5x10_S8000x10_1_0_0_1_n_n.lhsBatch by decide), dif_pos (show (0 : Fin S8000x5.rank) ∈ dot_S8000x5_S5x10_S8000x10_1_0_0_1_n_n.lhsNonContracting by decide)]
  rfl

/-- The output's column coordinate is the right operand's. -/
theorem rhs_col_5_10 (i : S8000x10.Idx) (q : dot_S8000x5_S5x10_S8000x10_1_0_0_1_n_n.contr.Idx) : (dot_S8000x5_S5x10_S8000x10_1_0_0_1_n_n.rhsIdx i q 1).val = (i 1).val := by
  unfold DotDims.rhsIdx
  rw [dif_neg (show ¬(1 : Fin S5x10.rank) ∈ dot_S8000x5_S5x10_S8000x10_1_0_0_1_n_n.rhsBatch by decide), dif_pos (show (1 : Fin S5x10.rank) ∈ dot_S8000x5_S5x10_S8000x10_1_0_0_1_n_n.rhsNonContracting by decide)]
  rfl

/-- The layer 5 → 10 as printed, at row `p` of the block. -/
theorem layer_5_10 (prec : Option ContractPrecision) (h : FVec Ideal S8000x5 .f32) (wt : FVec Ideal S5x10 .f32)
    (hw : S5x10.ShapeCasts S5x10) (bb : FVec Ideal S1x10 .f32) (hc : S1x10.ShapeCasts S1x10) (hb : S1x10.Broadcasts S8000x10)
    (p : Fin 8000) :
    rowOf (addf (matmul dot_S8000x5_S5x10_S8000x10_1_0_0_1_n_n prec h (shapeCast S5x10 wt hw) (constant S8000x10 .f32 0x00000000#32))
        (broadcastTo S8000x10 (shapeCast S1x10 bb hc) hb)) p
      = denseT wt bb (rowOf h p) :=
  layer_row dot_S8000x5_S5x10_S8000x10_1_0_0_1_n_n rfl rfl lhs_row_5_10
    (fun i q => dot_S8000x5_S5x10_S8000x10_1_0_0_1_n_n.lhsIdx_val_of_single rfl i q) (fun i q => dot_S8000x5_S5x10_S8000x10_1_0_0_1_n_n.rhsIdx_val_of_single rfl i q)
    rhs_col_5_10 prec h wt hw bb hc hb p

/-! ### The product of `[8000, 10]` activations with `[10, 10]` weights -/

/-- The output's row coordinate is the left operand's. -/
theorem lhs_row_10_10 (i : S8000x10.Idx) (q : dot_S8000x10_S10x10_S8000x10_1_0_0_1_n_n.contr.Idx) : (dot_S8000x10_S10x10_S8000x10_1_0_0_1_n_n.lhsIdx i q 0).val = (i 0).val := by
  unfold DotDims.lhsIdx
  rw [dif_neg (show ¬(0 : Fin S8000x10.rank) ∈ dot_S8000x10_S10x10_S8000x10_1_0_0_1_n_n.lhsBatch by decide), dif_pos (show (0 : Fin S8000x10.rank) ∈ dot_S8000x10_S10x10_S8000x10_1_0_0_1_n_n.lhsNonContracting by decide)]
  rfl

/-- The output's column coordinate is the right operand's. -/
theorem rhs_col_10_10 (i : S8000x10.Idx) (q : dot_S8000x10_S10x10_S8000x10_1_0_0_1_n_n.contr.Idx) : (dot_S8000x10_S10x10_S8000x10_1_0_0_1_n_n.rhsIdx i q 1).val = (i 1).val := by
  unfold DotDims.rhsIdx
  rw [dif_neg (show ¬(1 : Fin S10x10.rank) ∈ dot_S8000x10_S10x10_S8000x10_1_0_0_1_n_n.rhsBatch by decide), dif_pos (show (1 : Fin S10x10.rank) ∈ dot_S8000x10_S10x10_S8000x10_1_0_0_1_n_n.rhsNonContracting by decide)]
  rfl

/-- The layer 10 → 10 as printed, at row `p` of the block. -/
theorem layer_10_10 (prec : Option ContractPrecision) (h : FVec Ideal S8000x10 .f32) (wt : FVec Ideal S10x10 .f32)
    (hw : S10x10.ShapeCasts S10x10) (bb : FVec Ideal S1x10 .f32) (hc : S1x10.ShapeCasts S1x10) (hb : S1x10.Broadcasts S8000x10)
    (p : Fin 8000) :
    rowOf (addf (matmul dot_S8000x10_S10x10_S8000x10_1_0_0_1_n_n prec h (shapeCast S10x10 wt hw) (constant S8000x10 .f32 0x00000000#32))
        (broadcastTo S8000x10 (shapeCast S1x10 bb hc) hb)) p
      = denseT wt bb (rowOf h p) :=
  layer_row dot_S8000x10_S10x10_S8000x10_1_0_0_1_n_n rfl rfl lhs_row_10_10
    (fun i q => dot_S8000x10_S10x10_S8000x10_1_0_0_1_n_n.lhsIdx_val_of_single rfl i q) (fun i q => dot_S8000x10_S10x10_S8000x10_1_0_0_1_n_n.rhsIdx_val_of_single rfl i q)
    rhs_col_10_10 prec h wt hw bb hc hb p

/-! ### The product of `[8000, 10]` activations with `[10, 5]` weights -/

/-- The output's row coordinate is the left operand's. -/
theorem lhs_row_10_5 (i : S8000x5.Idx) (q : dot_S8000x10_S10x5_S8000x5_1_0_0_1_n_n.contr.Idx) : (dot_S8000x10_S10x5_S8000x5_1_0_0_1_n_n.lhsIdx i q 0).val = (i 0).val := by
  unfold DotDims.lhsIdx
  rw [dif_neg (show ¬(0 : Fin S8000x10.rank) ∈ dot_S8000x10_S10x5_S8000x5_1_0_0_1_n_n.lhsBatch by decide), dif_pos (show (0 : Fin S8000x10.rank) ∈ dot_S8000x10_S10x5_S8000x5_1_0_0_1_n_n.lhsNonContracting by decide)]
  rfl

/-- The output's column coordinate is the right operand's. -/
theorem rhs_col_10_5 (i : S8000x5.Idx) (q : dot_S8000x10_S10x5_S8000x5_1_0_0_1_n_n.contr.Idx) : (dot_S8000x10_S10x5_S8000x5_1_0_0_1_n_n.rhsIdx i q 1).val = (i 1).val := by
  unfold DotDims.rhsIdx
  rw [dif_neg (show ¬(1 : Fin S10x5.rank) ∈ dot_S8000x10_S10x5_S8000x5_1_0_0_1_n_n.rhsBatch by decide), dif_pos (show (1 : Fin S10x5.rank) ∈ dot_S8000x10_S10x5_S8000x5_1_0_0_1_n_n.rhsNonContracting by decide)]
  rfl

/-- The layer 10 → 5 as printed, at row `p` of the block. -/
theorem layer_10_5 (prec : Option ContractPrecision) (h : FVec Ideal S8000x10 .f32) (wt : FVec Ideal S10x5 .f32)
    (hw : S10x5.ShapeCasts S10x5) (bb : FVec Ideal S1x5 .f32) (hc : S1x5.ShapeCasts S1x5) (hb : S1x5.Broadcasts S8000x5)
    (p : Fin 8000) :
    rowOf (addf (matmul dot_S8000x10_S10x5_S8000x5_1_0_0_1_n_n prec h (shapeCast S10x5 wt hw) (constant S8000x5 .f32 0x00000000#32))
        (broadcastTo S8000x5 (shapeCast S1x5 bb hc) hb)) p
      = denseT wt bb (rowOf h p) :=
  layer_row dot_S8000x10_S10x5_S8000x5_1_0_0_1_n_n rfl rfl lhs_row_10_5
    (fun i q => dot_S8000x10_S10x5_S8000x5_1_0_0_1_n_n.lhsIdx_val_of_single rfl i q) (fun i q => dot_S8000x10_S10x5_S8000x5_1_0_0_1_n_n.rhsIdx_val_of_single rfl i q)
    rhs_col_10_5 prec h wt hw bb hc hb p

/-! ### The product of `[8000, 5]` activations with `[5, 1]` weights -/

/-- The output's row coordinate is the left operand's. -/
theorem lhs_row_5_1 (i : S8000x1.Idx) (q : dot_S8000x5_S5x1_S8000x1_1_0_0_1_n_n.contr.Idx) : (dot_S8000x5_S5x1_S8000x1_1_0_0_1_n_n.lhsIdx i q 0).val = (i 0).val := by
  unfold DotDims.lhsIdx
  rw [dif_neg (show ¬(0 : Fin S8000x5.rank) ∈ dot_S8000x5_S5x1_S8000x1_1_0_0_1_n_n.lhsBatch by decide), dif_pos (show (0 : Fin S8000x5.rank) ∈ dot_S8000x5_S5x1_S8000x1_1_0_0_1_n_n.lhsNonContracting by decide)]
  rfl

/-- The output's column coordinate is the right operand's. -/
theorem rhs_col_5_1 (i : S8000x1.Idx) (q : dot_S8000x5_S5x1_S8000x1_1_0_0_1_n_n.contr.Idx) : (dot_S8000x5_S5x1_S8000x1_1_0_0_1_n_n.rhsIdx i q 1).val = (i 1).val := by
  unfold DotDims.rhsIdx
  rw [dif_neg (show ¬(1 : Fin S5x1.rank) ∈ dot_S8000x5_S5x1_S8000x1_1_0_0_1_n_n.rhsBatch by decide), dif_pos (show (1 : Fin S5x1.rank) ∈ dot_S8000x5_S5x1_S8000x1_1_0_0_1_n_n.rhsNonContracting by decide)]
  rfl

/-- The layer 5 → 1 as printed, at row `p` of the block. -/
theorem layer_5_1 (prec : Option ContractPrecision) (h : FVec Ideal S8000x5 .f32) (wt : FVec Ideal S5x1 .f32)
    (hw : S5x1.ShapeCasts S5x1) (bb : FVec Ideal S1x1 .f32) (hc : S1x1.ShapeCasts S1x1) (hb : S1x1.Broadcasts S8000x1)
    (p : Fin 8000) :
    rowOf (addf (matmul dot_S8000x5_S5x1_S8000x1_1_0_0_1_n_n prec h (shapeCast S5x1 wt hw) (constant S8000x1 .f32 0x00000000#32))
        (broadcastTo S8000x1 (shapeCast S1x1 bb hc) hb)) p
      = denseT wt bb (rowOf h p) :=
  layer_row dot_S8000x5_S5x1_S8000x1_1_0_0_1_n_n rfl rfl lhs_row_5_1
    (fun i q => dot_S8000x5_S5x1_S8000x1_1_0_0_1_n_n.lhsIdx_val_of_single rfl i q) (fun i q => dot_S8000x5_S5x1_S8000x1_1_0_0_1_n_n.rhsIdx_val_of_single rfl i q)
    rhs_col_5_1 prec h wt hw bb hc hb p

/-! ### The stored value at a row -/

/-- Row `p` of the value the body stores is the ten layers of row `p` of the input block. -/
theorem payload_row (x0 : FVec Ideal S8000x1 .f32)
    (T1 : FVec Ideal S1x5 .f32) (c1 : FVec Ideal S1x5 .f32) (T2 : FVec Ideal S5x10 .f32) (c2 : FVec Ideal S1x10 .f32)
    (T3 : FVec Ideal S10x10 .f32) (c3 : FVec Ideal S1x10 .f32) (T4 : FVec Ideal S10x10 .f32) (c4 : FVec Ideal S1x10 .f32)
    (T5 : FVec Ideal S10x10 .f32) (c5 : FVec Ideal S1x10 .f32) (T6 : FVec Ideal S10x10 .f32) (c6 : FVec Ideal S1x10 .f32)
    (T7 : FVec Ideal S10x10 .f32) (c7 : FVec Ideal S1x10 .f32) (T8 : FVec Ideal S10x10 .f32) (c8 : FVec Ideal S1x10 .f32)
    (T9 : FVec Ideal S10x5 .f32) (c9 : FVec Ideal S1x5 .f32) (T10 : FVec Ideal S5x1 .f32) (c10 : FVec Ideal S1x1 .f32) (p : Fin 8000) :
    rowOf (k0_pay1 (F := Ideal) (k0_pay4 (F := Ideal) (k0_pay2 (F := Ideal) x0 T1 c1 T2 c2 T3 c3 T4) (k0_pay3 (F := Ideal) c4) T5 c5 T6 c6 T7 c7 T8) (k0_pay5 (F := Ideal) c8) T9 c9 T10 c10) p = netT T1 c1 T2 c2 T3 c3 T4 c4 T5 c5 T6 c6 T7 c7 T8 c8 T9 c9 T10 c10 (rowOf x0 p) := by
  unfold k0_pay1 k0_pay4 k0_pay2 k0_pay3 k0_pay5 netT
  dsimp only
  rw [layer_5_1, relu_row, layer_10_5, relu_row, layer_10_10, relu_row, layer_10_10, relu_row, layer_10_10, relu_row,
    layer_10_10, relu_row, layer_10_10, relu_row, layer_10_10, relu_row, layer_5_10, relu_row, layer_1_5]

/-! ### A block's stored value inside the whole result -/

/-- When the weight blocks are the arguments' weights transposed, the bias blocks the arguments' biases with a unit axis in
    front, and row `p` of the input block is row `r` of the input array `X`, entry `(p, q)` of the stored value is entry
    `(r, q)` of `Mlp.G` of the arguments: the transposed spelling of each layer is the layer itself. -/
theorem block_value {R : ℕ} (X : (⟨2, ![R, 1]⟩ : Shape).Idx → EReal)
    (W1 : FVec Ideal S5x1 .f32) (b1 : FVec Ideal S5 .f32)
    (W2 : FVec Ideal S10x5 .f32) (b2 : FVec Ideal S10 .f32)
    (W3 : FVec Ideal S10x10 .f32) (b3 : FVec Ideal S10 .f32)
    (W4 : FVec Ideal S10x10 .f32) (b4 : FVec Ideal S10 .f32)
    (W5 : FVec Ideal S10x10 .f32) (b5 : FVec Ideal S10 .f32)
    (W6 : FVec Ideal S10x10 .f32) (b6 : FVec Ideal S10 .f32)
    (W7 : FVec Ideal S10x10 .f32) (b7 : FVec Ideal S10 .f32)
    (W8 : FVec Ideal S10x10 .f32) (b8 : FVec Ideal S10 .f32)
    (W9 : FVec Ideal S5x10 .f32) (b9 : FVec Ideal S5 .f32)
    (W10 : FVec Ideal S1x5 .f32) (b10 : FVec Ideal S1 .f32)
    (x0 : FVec Ideal S8000x1 .f32)
    (T1 : FVec Ideal S1x5 .f32) (c1 : FVec Ideal S1x5 .f32) (T2 : FVec Ideal S5x10 .f32) (c2 : FVec Ideal S1x10 .f32)
    (T3 : FVec Ideal S10x10 .f32) (c3 : FVec Ideal S1x10 .f32) (T4 : FVec Ideal S10x10 .f32) (c4 : FVec Ideal S1x10 .f32)
    (T5 : FVec Ideal S10x10 .f32) (c5 : FVec Ideal S1x10 .f32) (T6 : FVec Ideal S10x10 .f32) (c6 : FVec Ideal S1x10 .f32)
    (T7 : FVec Ideal S10x10 .f32) (c7 : FVec Ideal S1x10 .f32) (T8 : FVec Ideal S10x10 .f32) (c8 : FVec Ideal S1x10 .f32)
    (T9 : FVec Ideal S10x5 .f32) (c9 : FVec Ideal S1x5 .f32) (T10 : FVec Ideal S5x1 .f32) (c10 : FVec Ideal S1x1 .f32)
    (hT1 : T1 = transpose S1x5 [1, 0] W1 transposes_S5x1_S1x5_1_0) (hc1 : c1 = shapeCast S1x5 b1 shapeCasts_S5_S1x5)
    (hT2 : T2 = transpose S5x10 [1, 0] W2 transposes_S10x5_S5x10_1_0) (hc2 : c2 = shapeCast S1x10 b2 shapeCasts_S10_S1x10)
    (hT3 : T3 = transpose S10x10 [1, 0] W3 transposes_S10x10_S10x10_1_0) (hc3 : c3 = shapeCast S1x10 b3 shapeCasts_S10_S1x10)
    (hT4 : T4 = transpose S10x10 [1, 0] W4 transposes_S10x10_S10x10_1_0) (hc4 : c4 = shapeCast S1x10 b4 shapeCasts_S10_S1x10)
    (hT5 : T5 = transpose S10x10 [1, 0] W5 transposes_S10x10_S10x10_1_0) (hc5 : c5 = shapeCast S1x10 b5 shapeCasts_S10_S1x10)
    (hT6 : T6 = transpose S10x10 [1, 0] W6 transposes_S10x10_S10x10_1_0) (hc6 : c6 = shapeCast S1x10 b6 shapeCasts_S10_S1x10)
    (hT7 : T7 = transpose S10x10 [1, 0] W7 transposes_S10x10_S10x10_1_0) (hc7 : c7 = shapeCast S1x10 b7 shapeCasts_S10_S1x10)
    (hT8 : T8 = transpose S10x10 [1, 0] W8 transposes_S10x10_S10x10_1_0) (hc8 : c8 = shapeCast S1x10 b8 shapeCasts_S10_S1x10)
    (hT9 : T9 = transpose S10x5 [1, 0] W9 transposes_S5x10_S10x5_1_0) (hc9 : c9 = shapeCast S1x5 b9 shapeCasts_S5_S1x5)
    (hT10 : T10 = transpose S5x1 [1, 0] W10 transposes_S1x5_S5x1_1_0) (hc10 : c10 = shapeCast S1x1 b10 shapeCasts_S1_S1x1)
    (p : Fin 8000) (q : Fin 1) (r : Fin R) (hx : ∀ k : Fin 1, x0 (ix2 p k) = X (ix2 r k)) :
    (k0_pay1 (F := Ideal) (k0_pay4 (F := Ideal) (k0_pay2 (F := Ideal) x0 T1 c1 T2 c2 T3 c3 T4) (k0_pay3 (F := Ideal) c4) T5 c5 T6 c6 T7 c7 T8) (k0_pay5 (F := Ideal) c8) T9 c9 T10 c10) (ix2 p q) = G X W1 b1 W2 b2 W3 b3 W4 b4 W5 b5 W6 b6 W7 b7 W8 b8 W9 b9 W10 b10 (ix2 r q) := by
  subst hT1 hc1 hT2 hc2 hT3 hc3 hT4 hc4 hT5 hc5 hT6 hc6 hT7 hc7 hT8 hc8 hT9 hc9 hT10 hc10
  rw [G_ix2]
  refine (congrFun (payload_row x0 _ _ _ _ _ _ _ _ _ _ _ _ _ _ _ _ _ _ _ _ p) q).trans ?_
  rw [show rowOf x0 p = rowOf X r from funext hx]
  unfold netT net
  rw [denseT_transpose, denseT_transpose, denseT_transpose, denseT_transpose, denseT_transpose, denseT_transpose,
    denseT_transpose, denseT_transpose, denseT_transpose, denseT_transpose]

end Cert.KernelIdeal.Row

end
-- ==== Proof.KernelValue.lean ====
/-
  From the kernel's blocks to its whole result array. The grid has 500 points; point `t` stages rows `8000·t … 8000·t + 7999`
  of the input `x` and every weight and bias array whole, and writes back rows `8000·t … 8000·t + 7999` of the result. The
  weight arrays the region finds are the arguments' weights transposed and the bias arrays the arguments' biases with a unit
  axis in front (the host operations before the region). So what point `t` writes back is block `t` of `Mlp.G` of the
  arguments (`flushed_eq`, by `Row.block_value`), the 500 blocks cover the array (row `r` lies in block `r / 8000`), and the
  result array ends holding `Mlp.G` of the arguments (`final`, `run`).
-/
import proofs.«140222_j18605798326828_1_alg».proof.Proof.Gen.KernelIdeal.Frame
import proofs.«140222_j18605798326828_1_alg».proof.Proof.Gen.KernelIdeal.Value
import proofs.«140222_j18605798326828_1_alg».proof.Proof.Mlp
import proofs.«140222_j18605798326828_1_alg».proof.Proof.KernelRow
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.Whole

open Cert.KernelIdeal Cert.KernelIdeal.Gen Cert.KernelIdeal.Value Cert.KernelIdeal.Row
open Idealize.ShloMosaic Idealize.ShloMosaic.TcCoe Idealize.SL.Sem Idealize.ShloMosaic.StableHlo Idealize.ShloMosaic.ValueIdx Cert.Mlp
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result array as a function of the launch memory: the ten layers of each row of `x`. -/
abbrev result (c : Dev nD) : S4000000x1.Idx → EReal := G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))

/-! ## The index maps, decided over the 500 grid points -/

/-- The input `x` and the result move with the grid point on the row axis; -/
theorem idx_0 : ∀ t : Fin cfg0.N, win0_0.index t (0 : Fin 2) = t.val ∧ win0_0.index t (1 : Fin 2) = 0 :=
  (by decide +kernel : ∀ t : Fin grid0.N, _)
theorem idx_21 : ∀ t : Fin cfg0.N, win0_21.index t (0 : Fin 2) = t.val ∧ win0_21.index t (1 : Fin 2) = 0 :=
  (by decide +kernel : ∀ t : Fin grid0.N, _)
/-- every weight and bias window stays at block `(0, 0)`: the whole array. -/
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)
theorem idx_10 : ∀ t : Fin cfg0.N, win0_10.index t (0 : Fin 2) = 0 ∧ win0_10.index t (1 : Fin 2) = 0 :=
  (by decide +kernel : ∀ t : Fin grid0.N, _)
theorem idx_11 : ∀ t : Fin cfg0.N, win0_11.index t (0 : Fin 2) = 0 ∧ win0_11.index t (1 : Fin 2) = 0 :=
  (by decide +kernel : ∀ t : Fin grid0.N, _)
theorem idx_12 : ∀ t : Fin cfg0.N, win0_12.index t (0 : Fin 2) = 0 ∧ win0_12.index t (1 : Fin 2) = 0 :=
  (by decide +kernel : ∀ t : Fin grid0.N, _)
theorem idx_13 : ∀ t : Fin cfg0.N, win0_13.index t (0 : Fin 2) = 0 ∧ win0_13.index t (1 : Fin 2) = 0 :=
  (by decide +kernel : ∀ t : Fin grid0.N, _)
theorem idx_14 : ∀ t : Fin cfg0.N, win0_14.index t (0 : Fin 2) = 0 ∧ win0_14.index t (1 : Fin 2) = 0 :=
  (by decide +kernel : ∀ t : Fin grid0.N, _)
theorem idx_15 : ∀ t : Fin cfg0.N, win0_15.index t (0 : Fin 2) = 0 ∧ win0_15.index t (1 : Fin 2) = 0 :=
  (by decide +kernel : ∀ t : Fin grid0.N, _)
theorem idx_16 : ∀ t : Fin cfg0.N, win0_16.index t (0 : Fin 2) = 0 ∧ win0_16.index t (1 : Fin 2) = 0 :=
  (by decide +kernel : ∀ t : Fin grid0.N, _)
theorem idx_17 : ∀ t : Fin cfg0.N, win0_17.index t (0 : Fin 2) = 0 ∧ win0_17.index t (1 : Fin 2) = 0 :=
  (by decide +kernel : ∀ t : Fin grid0.N, _)
theorem idx_18 : ∀ t : Fin cfg0.N, win0_18.index t (0 : Fin 2) = 0 ∧ win0_18.index t (1 : Fin 2) = 0 :=
  (by decide +kernel : ∀ t : Fin grid0.N, _)
theorem idx_19 : ∀ t : Fin cfg0.N, win0_19.index t (0 : Fin 2) = 0 ∧ win0_19.index t (1 : Fin 2) = 0 :=
  (by decide +kernel : ∀ t : Fin grid0.N, _)
theorem idx_20 : ∀ t : Fin cfg0.N, win0_20.index t (0 : Fin 2) = 0 ∧ win0_20.index t (1 : Fin 2) = 0 :=
  (by decide +kernel : ∀ t : Fin grid0.N, _)

/-! ## The arrays the region finds: the host operations before it -/

theorem host_1 (c : Dev nD) : (V m c main_v0 : S1x5.Idx → EReal) = transpose S1x5 [1, 0] (m ((c : Thread nD τ).loc main_arg1)) transposes_S5x1_S1x5_1_0 := by
  dsimp only [Gen.V, Gen.hostOps0]; after_results
theorem host_2 (c : Dev nD) : (V m c main_v10 : S1x5.Idx → EReal) = shapeCast S1x5 (m ((c : Thread nD τ).loc main_arg2)) shapeCasts_S5_S1x5 := by
  dsimp only [Gen.V, Gen.hostOps0]; after_results; rfl
theorem host_3 (c : Dev nD) : (V m c main_v1 : S5x10.Idx → EReal) = transpose S5x10 [1, 0] (m ((c : Thread nD τ).loc main_arg3)) transposes_S10x5_S5x10_1_0 := by
  dsimp only [Gen.V, Gen.hostOps0]; after_results
theorem host_4 (c : Dev nD) : (V m c main_v11 : S1x10.Idx → EReal) = shapeCast S1x10 (m ((c : Thread nD τ).loc main_arg4)) shapeCasts_S10_S1x10 := by
  dsimp only [Gen.V, Gen.hostOps0]; after_results; rfl
theorem host_5 (c : Dev nD) : (V m c main_v2 : S10x10.Idx → EReal) = transpose S10x10 [1, 0] (m ((c : Thread nD τ).loc main_arg5)) transposes_S10x10_S10x10_1_0 := by
  dsimp only [Gen.V, Gen.hostOps0]; after_results
theorem host_6 (c : Dev nD) : (V m c main_v12 : S1x10.Idx → EReal) = shapeCast S1x10 (m ((c : Thread nD τ).loc main_arg6)) shapeCasts_S10_S1x10 := by
  dsimp only [Gen.V, Gen.hostOps0]; after_results; rfl
theorem host_7 (c : Dev nD) : (V m c main_v3 : S10x10.Idx → EReal) = transpose S10x10 [1, 0] (m ((c : Thread nD τ).loc main_arg7)) transposes_S10x10_S10x10_1_0 := by
  dsimp only [Gen.V, Gen.hostOps0]; after_results
theorem host_8 (c : Dev nD) : (V m c main_v13 : S1x10.Idx → EReal) = shapeCast S1x10 (m ((c : Thread nD τ).loc main_arg8)) shapeCasts_S10_S1x10 := by
  dsimp only [Gen.V, Gen.hostOps0]; after_results; rfl
theorem host_9 (c : Dev nD) : (V m c main_v4 : S10x10.Idx → EReal) = transpose S10x10 [1, 0] (m ((c : Thread nD τ).loc main_arg9)) transposes_S10x10_S10x10_1_0 := by
  dsimp only [Gen.V, Gen.hostOps0]; after_results
theorem host_10 (c : Dev nD) : (V m c main_v14 : S1x10.Idx → EReal) = shapeCast S1x10 (m ((c : Thread nD τ).loc main_arg10)) shapeCasts_S10_S1x10 := by
  dsimp only [Gen.V, Gen.hostOps0]; after_results; rfl
theorem host_11 (c : Dev nD) : (V m c main_v5 : S10x10.Idx → EReal) = transpose S10x10 [1, 0] (m ((c : Thread nD τ).loc main_arg11)) transposes_S10x10_S10x10_1_0 := by
  dsimp only [Gen.V, Gen.hostOps0]; after_results
theorem host_12 (c : Dev nD) : (V m c main_v15 : S1x10.Idx → EReal) = shapeCast S1x10 (m ((c : Thread nD τ).loc main_arg12)) shapeCasts_S10_S1x10 := by
  dsimp only [Gen.V, Gen.hostOps0]; after_results; rfl
theorem host_13 (c : Dev nD) : (V m c main_v6 : S10x10.Idx → EReal) = transpose S10x10 [1, 0] (m ((c : Thread nD τ).loc main_arg13)) transposes_S10x10_S10x10_1_0 := by
  dsimp only [Gen.V, Gen.hostOps0]; after_results
theorem host_14 (c : Dev nD) : (V m c main_v16 : S1x10.Idx → EReal) = shapeCast S1x10 (m ((c : Thread nD τ).loc main_arg14)) shapeCasts_S10_S1x10 := by
  dsimp only [Gen.V, Gen.hostOps0]; after_results; rfl
theorem host_15 (c : Dev nD) : (V m c main_v7 : S10x10.Idx → EReal) = transpose S10x10 [1, 0] (m ((c : Thread nD τ).loc main_arg15)) transposes_S10x10_S10x10_1_0 := by
  dsimp only [Gen.V, Gen.hostOps0]; after_results
theorem host_16 (c : Dev nD) : (V m c main_v17 : S1x10.Idx → EReal) = shapeCast S1x10 (m ((c : Thread nD τ).loc main_arg16)) shapeCasts_S10_S1x10 := by
  dsimp only [Gen.V, Gen.hostOps0]; after_results; rfl
theorem host_17 (c : Dev nD) : (V m c main_v8 : S10x5.Idx → EReal) = transpose S10x5 [1, 0] (m ((c : Thread nD τ).loc main_arg17)) transposes_S5x10_S10x5_1_0 := by
  dsimp only [Gen.V, Gen.hostOps0]; after_results
theorem host_18 (c : Dev nD) : (V m c main_v18 : S1x5.Idx → EReal) = shapeCast S1x5 (m ((c : Thread nD τ).loc main_arg18)) shapeCasts_S5_S1x5 := by
  dsimp only [Gen.V, Gen.hostOps0]; after_results; rfl
theorem host_19 (c : Dev nD) : (V m c main_v9 : S5x1.Idx → EReal) = transpose S5x1 [1, 0] (m ((c : Thread nD τ).loc main_arg19)) transposes_S1x5_S5x1_1_0 := by
  dsimp only [Gen.V, Gen.hostOps0]; after_results
theorem host_20 (c : Dev nD) : (V m c main_v19 : S1x1.Idx → EReal) = shapeCast S1x1 (m ((c : Thread nD τ).loc main_arg20)) shapeCasts_S1_S1x1 := by
  dsimp only [Gen.V, Gen.hostOps0]; after_results; rfl

/-! ## The blocks -/

/-- Row `p` of point `t`'s block is row `8000·t + p` of the array. -/
theorem row_lt (t : Fin cfg0.N) (p : Fin 8000) : t.val * 8000 + p.val < 4000000 := by
  have ht : t.val < 500 := Nat.lt_of_lt_of_eq t.isLt N_0
  have hp := p.isLt
  omega

/-- The input block at point `t`, entry `(p, k)`, is `x` at `(8000·t + p, k)`. -/
theorem blk_0 (c : Dev nD) (t : Fin cfg0.N) (p : Fin 8000) (k : Fin 1) :
    (iblk m c 0 t : Vec Ideal S8000x1 .f32) (ix2 p k)
      = (m ((c : Thread nD τ).loc main_arg0) : S4000000x1.Idx → EReal) (ix2 ⟨t.val * 8000 + p.val, row_lt t p⟩ k) := by
  unfold iblk
  rw [View.read_apply]
  show V m c main_arg0 _ = _
  rw [V_main_arg0 m c]
  refine congrArg (m ((c : Thread nD τ).loc main_arg0) : S4000000x1.Idx → EReal) (funext fun a => Fin.ext ?_)
  match a with
  | ⟨0, _⟩ => show win0_0.index t (0 : Fin 2) * 8000 + 1 * p.val = t.val * 8000 + p.val; rw [(idx_0 t).1]; omega
  | ⟨1, _⟩ => show win0_0.index t (1 : Fin 2) * 1 + 1 * k.val = k.val; rw [(idx_0 t).2]; omega

/-- Each weight or bias block is the whole array the region finds: the argument transposed, or re-cast with a unit axis. -/
theorem blk_1 (c : Dev nD) (t : Fin cfg0.N) : (iblk m c 1 t : Vec Ideal S1x5 .f32) = transpose S1x5 [1, 0] (m ((c : Thread nD τ).loc main_arg1)) transposes_S5x1_S1x5_1_0 := by
  refine Eq.trans (funext fun y => ?_) (host_1 m c)
  unfold iblk
  rw [View.read_apply]
  refine congrArg (V m c main_v0 : S1x5.Idx → EReal) (funext fun a => Fin.ext ?_)
  match a with
  | ⟨0, _⟩ => show win0_1.index t (0 : Fin 2) * 1 + 1 * (y 0).val = (y 0).val; rw [(idx_1 t).1]; omega
  | ⟨1, _⟩ => show win0_1.index t (1 : Fin 2) * 5 + 1 * (y 1).val = (y 1).val; rw [(idx_1 t).2]; omega
theorem blk_2 (c : Dev nD) (t : Fin cfg0.N) : (iblk m c 2 t : Vec Ideal S1x5 .f32) = shapeCast S1x5 (m ((c : Thread nD τ).loc main_arg2)) shapeCasts_S5_S1x5 := by
  refine Eq.trans (funext fun y => ?_) (host_2 m c)
  unfold iblk
  rw [View.read_apply]
  refine congrArg (V m c main_v10 : S1x5.Idx → EReal) (funext fun a => Fin.ext ?_)
  match a with
  | ⟨0, _⟩ => show win0_2.index t (0 : Fin 2) * 1 + 1 * (y 0).val = (y 0).val; rw [(idx_2 t).1]; omega
  | ⟨1, _⟩ => show win0_2.index t (1 : Fin 2) * 5 + 1 * (y 1).val = (y 1).val; rw [(idx_2 t).2]; omega
theorem blk_3 (c : Dev nD) (t : Fin cfg0.N) : (iblk m c 3 t : Vec Ideal S5x10 .f32) = transpose S5x10 [1, 0] (m ((c : Thread nD τ).loc main_arg3)) transposes_S10x5_S5x10_1_0 := by
  refine Eq.trans (funext fun y => ?_) (host_3 m c)
  unfold iblk
  rw [View.read_apply]
  refine congrArg (V m c main_v1 : S5x10.Idx → EReal) (funext fun a => Fin.ext ?_)
  match a with
  | ⟨0, _⟩ => show win0_3.index t (0 : Fin 2) * 5 + 1 * (y 0).val = (y 0).val; rw [(idx_3 t).1]; omega
  | ⟨1, _⟩ => show win0_3.index t (1 : Fin 2) * 10 + 1 * (y 1).val = (y 1).val; rw [(idx_3 t).2]; omega
theorem blk_4 (c : Dev nD) (t : Fin cfg0.N) : (iblk m c 4 t : Vec Ideal S1x10 .f32) = shapeCast S1x10 (m ((c : Thread nD τ).loc main_arg4)) shapeCasts_S10_S1x10 := by
  refine Eq.trans (funext fun y => ?_) (host_4 m c)
  unfold iblk
  rw [View.read_apply]
  refine congrArg (V m c main_v11 : S1x10.Idx → EReal) (funext fun a => Fin.ext ?_)
  match a with
  | ⟨0, _⟩ => show win0_4.index t (0 : Fin 2) * 1 + 1 * (y 0).val = (y 0).val; rw [(idx_4 t).1]; omega
  | ⟨1, _⟩ => show win0_4.index t (1 : Fin 2) * 10 + 1 * (y 1).val = (y 1).val; rw [(idx_4 t).2]; omega
theorem blk_5 (c : Dev nD) (t : Fin cfg0.N) : (iblk m c 5 t : Vec Ideal S10x10 .f32) = transpose S10x10 [1, 0] (m ((c : Thread nD τ).loc main_arg5)) transposes_S10x10_S10x10_1_0 := by
  refine Eq.trans (funext fun y => ?_) (host_5 m c)
  unfold iblk
  rw [View.read_apply]
  refine congrArg (V m c main_v2 : S10x10.Idx → EReal) (funext fun a => Fin.ext ?_)
  match a with
  | ⟨0, _⟩ => show win0_5.index t (0 : Fin 2) * 10 + 1 * (y 0).val = (y 0).val; rw [(idx_5 t).1]; omega
  | ⟨1, _⟩ => show win0_5.index t (1 : Fin 2) * 10 + 1 * (y 1).val = (y 1).val; rw [(idx_5 t).2]; omega
theorem blk_6 (c : Dev nD) (t : Fin cfg0.N) : (iblk m c 6 t : Vec Ideal S1x10 .f32) = shapeCast S1x10 (m ((c : Thread nD τ).loc main_arg6)) shapeCasts_S10_S1x10 := by
  refine Eq.trans (funext fun y => ?_) (host_6 m c)
  unfold iblk
  rw [View.read_apply]
  refine congrArg (V m c main_v12 : S1x10.Idx → EReal) (funext fun a => Fin.ext ?_)
  match a with
  | ⟨0, _⟩ => show win0_6.index t (0 : Fin 2) * 1 + 1 * (y 0).val = (y 0).val; rw [(idx_6 t).1]; omega
  | ⟨1, _⟩ => show win0_6.index t (1 : Fin 2) * 10 + 1 * (y 1).val = (y 1).val; rw [(idx_6 t).2]; omega
theorem blk_7 (c : Dev nD) (t : Fin cfg0.N) : (iblk m c 7 t : Vec Ideal S10x10 .f32) = transpose S10x10 [1, 0] (m ((c : Thread nD τ).loc main_arg7)) transposes_S10x10_S10x10_1_0 := by
  refine Eq.trans (funext fun y => ?_) (host_7 m c)
  unfold iblk
  rw [View.read_apply]
  refine congrArg (V m c main_v3 : S10x10.Idx → EReal) (funext fun a => Fin.ext ?_)
  match a with
  | ⟨0, _⟩ => show win0_7.index t (0 : Fin 2) * 10 + 1 * (y 0).val = (y 0).val; rw [(idx_7 t).1]; omega
  | ⟨1, _⟩ => show win0_7.index t (1 : Fin 2) * 10 + 1 * (y 1).val = (y 1).val; rw [(idx_7 t).2]; omega
theorem blk_8 (c : Dev nD) (t : Fin cfg0.N) : (iblk m c 8 t : Vec Ideal S1x10 .f32) = shapeCast S1x10 (m ((c : Thread nD τ).loc main_arg8)) shapeCasts_S10_S1x10 := by
  refine Eq.trans (funext fun y => ?_) (host_8 m c)
  unfold iblk
  rw [View.read_apply]
  refine congrArg (V m c main_v13 : S1x10.Idx → EReal) (funext fun a => Fin.ext ?_)
  match a with
  | ⟨0, _⟩ => show win0_8.index t (0 : Fin 2) * 1 + 1 * (y 0).val = (y 0).val; rw [(idx_8 t).1]; omega
  | ⟨1, _⟩ => show win0_8.index t (1 : Fin 2) * 10 + 1 * (y 1).val = (y 1).val; rw [(idx_8 t).2]; omega
theorem blk_9 (c : Dev nD) (t : Fin cfg0.N) : (iblk m c 9 t : Vec Ideal S10x10 .f32) = transpose S10x10 [1, 0] (m ((c : Thread nD τ).loc main_arg9)) transposes_S10x10_S10x10_1_0 := by
  refine Eq.trans (funext fun y => ?_) (host_9 m c)
  unfold iblk
  rw [View.read_apply]
  refine congrArg (V m c main_v4 : S10x10.Idx → EReal) (funext fun a => Fin.ext ?_)
  match a with
  | ⟨0, _⟩ => show win0_9.index t (0 : Fin 2) * 10 + 1 * (y 0).val = (y 0).val; rw [(idx_9 t).1]; omega
  | ⟨1, _⟩ => show win0_9.index t (1 : Fin 2) * 10 + 1 * (y 1).val = (y 1).val; rw [(idx_9 t).2]; omega
theorem blk_10 (c : Dev nD) (t : Fin cfg0.N) : (iblk m c 10 t : Vec Ideal S1x10 .f32) = shapeCast S1x10 (m ((c : Thread nD τ).loc main_arg10)) shapeCasts_S10_S1x10 := by
  refine Eq.trans (funext fun y => ?_) (host_10 m c)
  unfold iblk
  rw [View.read_apply]
  refine congrArg (V m c main_v14 : S1x10.Idx → EReal) (funext fun a => Fin.ext ?_)
  match a with
  | ⟨0, _⟩ => show win0_10.index t (0 : Fin 2) * 1 + 1 * (y 0).val = (y 0).val; rw [(idx_10 t).1]; omega
  | ⟨1, _⟩ => show win0_10.index t (1 : Fin 2) * 10 + 1 * (y 1).val = (y 1).val; rw [(idx_10 t).2]; omega
theorem blk_11 (c : Dev nD) (t : Fin cfg0.N) : (iblk m c 11 t : Vec Ideal S10x10 .f32) = transpose S10x10 [1, 0] (m ((c : Thread nD τ).loc main_arg11)) transposes_S10x10_S10x10_1_0 := by
  refine Eq.trans (funext fun y => ?_) (host_11 m c)
  unfold iblk
  rw [View.read_apply]
  refine congrArg (V m c main_v5 : S10x10.Idx → EReal) (funext fun a => Fin.ext ?_)
  match a with
  | ⟨0, _⟩ => show win0_11.index t (0 : Fin 2) * 10 + 1 * (y 0).val = (y 0).val; rw [(idx_11 t).1]; omega
  | ⟨1, _⟩ => show win0_11.index t (1 : Fin 2) * 10 + 1 * (y 1).val = (y 1).val; rw [(idx_11 t).2]; omega
theorem blk_12 (c : Dev nD) (t : Fin cfg0.N) : (iblk m c 12 t : Vec Ideal S1x10 .f32) = shapeCast S1x10 (m ((c : Thread nD τ).loc main_arg12)) shapeCasts_S10_S1x10 := by
  refine Eq.trans (funext fun y => ?_) (host_12 m c)
  unfold iblk
  rw [View.read_apply]
  refine congrArg (V m c main_v15 : S1x10.Idx → EReal) (funext fun a => Fin.ext ?_)
  match a with
  | ⟨0, _⟩ => show win0_12.index t (0 : Fin 2) * 1 + 1 * (y 0).val = (y 0).val; rw [(idx_12 t).1]; omega
  | ⟨1, _⟩ => show win0_12.index t (1 : Fin 2) * 10 + 1 * (y 1).val = (y 1).val; rw [(idx_12 t).2]; omega
theorem blk_13 (c : Dev nD) (t : Fin cfg0.N) : (iblk m c 13 t : Vec Ideal S10x10 .f32) = transpose S10x10 [1, 0] (m ((c : Thread nD τ).loc main_arg13)) transposes_S10x10_S10x10_1_0 := by
  refine Eq.trans (funext fun y => ?_) (host_13 m c)
  unfold iblk
  rw [View.read_apply]
  refine congrArg (V m c main_v6 : S10x10.Idx → EReal) (funext fun a => Fin.ext ?_)
  match a with
  | ⟨0, _⟩ => show win0_13.index t (0 : Fin 2) * 10 + 1 * (y 0).val = (y 0).val; rw [(idx_13 t).1]; omega
  | ⟨1, _⟩ => show win0_13.index t (1 : Fin 2) * 10 + 1 * (y 1).val = (y 1).val; rw [(idx_13 t).2]; omega
theorem blk_14 (c : Dev nD) (t : Fin cfg0.N) : (iblk m c 14 t : Vec Ideal S1x10 .f32) = shapeCast S1x10 (m ((c : Thread nD τ).loc main_arg14)) shapeCasts_S10_S1x10 := by
  refine Eq.trans (funext fun y => ?_) (host_14 m c)
  unfold iblk
  rw [View.read_apply]
  refine congrArg (V m c main_v16 : S1x10.Idx → EReal) (funext fun a => Fin.ext ?_)
  match a with
  | ⟨0, _⟩ => show win0_14.index t (0 : Fin 2) * 1 + 1 * (y 0).val = (y 0).val; rw [(idx_14 t).1]; omega
  | ⟨1, _⟩ => show win0_14.index t (1 : Fin 2) * 10 + 1 * (y 1).val = (y 1).val; rw [(idx_14 t).2]; omega
theorem blk_15 (c : Dev nD) (t : Fin cfg0.N) : (iblk m c 15 t : Vec Ideal S10x10 .f32) = transpose S10x10 [1, 0] (m ((c : Thread nD τ).loc main_arg15)) transposes_S10x10_S10x10_1_0 := by
  refine Eq.trans (funext fun y => ?_) (host_15 m c)
  unfold iblk
  rw [View.read_apply]
  refine congrArg (V m c main_v7 : S10x10.Idx → EReal) (funext fun a => Fin.ext ?_)
  match a with
  | ⟨0, _⟩ => show win0_15.index t (0 : Fin 2) * 10 + 1 * (y 0).val = (y 0).val; rw [(idx_15 t).1]; omega
  | ⟨1, _⟩ => show win0_15.index t (1 : Fin 2) * 10 + 1 * (y 1).val = (y 1).val; rw [(idx_15 t).2]; omega
theorem blk_16 (c : Dev nD) (t : Fin cfg0.N) : (iblk m c 16 t : Vec Ideal S1x10 .f32) = shapeCast S1x10 (m ((c : Thread nD τ).loc main_arg16)) shapeCasts_S10_S1x10 := by
  refine Eq.trans (funext fun y => ?_) (host_16 m c)
  unfold iblk
  rw [View.read_apply]
  refine congrArg (V m c main_v17 : S1x10.Idx → EReal) (funext fun a => Fin.ext ?_)
  match a with
  | ⟨0, _⟩ => show win0_16.index t (0 : Fin 2) * 1 + 1 * (y 0).val = (y 0).val; rw [(idx_16 t).1]; omega
  | ⟨1, _⟩ => show win0_16.index t (1 : Fin 2) * 10 + 1 * (y 1).val = (y 1).val; rw [(idx_16 t).2]; omega
theorem blk_17 (c : Dev nD) (t : Fin cfg0.N) : (iblk m c 17 t : Vec Ideal S10x5 .f32) = transpose S10x5 [1, 0] (m ((c : Thread nD τ).loc main_arg17)) transposes_S5x10_S10x5_1_0 := by
  refine Eq.trans (funext fun y => ?_) (host_17 m c)
  unfold iblk
  rw [View.read_apply]
  refine congrArg (V m c main_v8 : S10x5.Idx → EReal) (funext fun a => Fin.ext ?_)
  match a with
  | ⟨0, _⟩ => show win0_17.index t (0 : Fin 2) * 10 + 1 * (y 0).val = (y 0).val; rw [(idx_17 t).1]; omega
  | ⟨1, _⟩ => show win0_17.index t (1 : Fin 2) * 5 + 1 * (y 1).val = (y 1).val; rw [(idx_17 t).2]; omega
theorem blk_18 (c : Dev nD) (t : Fin cfg0.N) : (iblk m c 18 t : Vec Ideal S1x5 .f32) = shapeCast S1x5 (m ((c : Thread nD τ).loc main_arg18)) shapeCasts_S5_S1x5 := by
  refine Eq.trans (funext fun y => ?_) (host_18 m c)
  unfold iblk
  rw [View.read_apply]
  refine congrArg (V m c main_v18 : S1x5.Idx → EReal) (funext fun a => Fin.ext ?_)
  match a with
  | ⟨0, _⟩ => show win0_18.index t (0 : Fin 2) * 1 + 1 * (y 0).val = (y 0).val; rw [(idx_18 t).1]; omega
  | ⟨1, _⟩ => show win0_18.index t (1 : Fin 2) * 5 + 1 * (y 1).val = (y 1).val; rw [(idx_18 t).2]; omega
theorem blk_19 (c : Dev nD) (t : Fin cfg0.N) : (iblk m c 19 t : Vec Ideal S5x1 .f32) = transpose S5x1 [1, 0] (m ((c : Thread nD τ).loc main_arg19)) transposes_S1x5_S5x1_1_0 := by
  refine Eq.trans (funext fun y => ?_) (host_19 m c)
  unfold iblk
  rw [View.read_apply]
  refine congrArg (V m c main_v9 : S5x1.Idx → EReal) (funext fun a => Fin.ext ?_)
  match a with
  | ⟨0, _⟩ => show win0_19.index t (0 : Fin 2) * 5 + 1 * (y 0).val = (y 0).val; rw [(idx_19 t).1]; omega
  | ⟨1, _⟩ => show win0_19.index t (1 : Fin 2) * 1 + 1 * (y 1).val = (y 1).val; rw [(idx_19 t).2]; omega
theorem blk_20 (c : Dev nD) (t : Fin cfg0.N) : (iblk m c 20 t : Vec Ideal S1x1 .f32) = shapeCast S1x1 (m ((c : Thread nD τ).loc main_arg20)) shapeCasts_S1_S1x1 := by
  refine Eq.trans (funext fun y => ?_) (host_20 m c)
  unfold iblk
  rw [View.read_apply]
  refine congrArg (V m c main_v19 : S1x1.Idx → EReal) (funext fun a => Fin.ext ?_)
  match a with
  | ⟨0, _⟩ => show win0_20.index t (0 : Fin 2) * 1 + 1 * (y 0).val = (y 0).val; rw [(idx_20 t).1]; omega
  | ⟨1, _⟩ => show win0_20.index t (1 : Fin 2) * 1 + 1 * (y 1).val = (y 1).val; rw [(idx_20 t).2]; omega

/-- Entry `(p, q)` of the result's block at point `t` sits at `(8000·t + p, q)` of the array. -/
theorem emb_out (t : Fin cfg0.N) (p : Fin 8000) (q : Fin 1) :
    ((cfg0.win 21).blk t).view.emb (ix2 p q) = (ix2 ⟨t.val * 8000 + p.val, row_lt t p⟩ q : S4000000x1.Idx) := by
  funext a
  apply Fin.ext
  match a with
  | ⟨0, _⟩ => show win0_21.index t (0 : Fin 2) * 8000 + 1 * p.val = t.val * 8000 + p.val; rw [(idx_21 t).1]; omega
  | ⟨1, _⟩ => show win0_21.index t (1 : Fin 2) * 1 + 1 * q.val = q.val; rw [(idx_21 t).2]; omega

/-! ## What a point writes back, the cover, the array -/

/-- The value the body stores at point `t`, at an index of the block, is `result` at that index's place in the array. -/
theorem point_eq (c : Dev nD) (t : Fin cfg0.N) (y : S8000x1.Idx) :
    (k0_pay1 (F := Ideal) (k0_pay4 (F := Ideal) (k0_pay2 (F := Ideal) (iblk m c 0 t) (iblk m c 1 t) (iblk m c 2 t) (iblk m c 3 t) (iblk m c 4 t) (iblk m c 5 t) (iblk m c 6 t) (iblk m c 7 t)) (k0_pay3 (F := Ideal) (iblk m c 8 t)) (iblk m c 9 t) (iblk m c 10 t) (iblk m c 11 t) (iblk m c 12 t) (iblk m c 13 t) (iblk m c 14 t) (iblk m c 15 t)) (k0_pay5 (F := Ideal) (iblk m c 16 t)) (iblk m c 17 t) (iblk m c 18 t) (iblk m c 19 t) (iblk m c 20 t)) y
      = result m c (((cfg0.win 21).blk t).view.emb y) := by
  obtain ⟨p, q, rfl⟩ : ∃ (p : Fin 8000) (q : Fin 1), y = ix2 p q := ⟨y 0, y 1, eq_ix2 y⟩
  rw [emb_out]
  exact block_value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    (blk_1 m c t) (blk_2 m c t) (blk_3 m c t) (blk_4 m c t) (blk_5 m c t) (blk_6 m c t) (blk_7 m c t) (blk_8 m c t) (blk_9 m c t) (blk_10 m c t) (blk_11 m c t) (blk_12 m c t) (blk_13 m c t) (blk_14 m c t) (blk_15 m c t) (blk_16 m c t) (blk_17 m c t) (blk_18 m c t) (blk_19 m c t) (blk_20 m c t)
    p q ⟨t.val * 8000 + p.val, row_lt t p⟩ (blk_0 m c t p)

/-- What point `t` writes back is block `t` of `result`. -/
theorem flushed_eq (c : Dev nD) (t : Fin cfg0.N) :
    (dats m 0 c).flushed 21 t = ((cfg0.win 21).blk t).view.read (Elt Ideal) (result m c) := by
  rw [Value.flushed21]
  unfold out0_21
  rw [View.canon_unit_zero hz]
  simp only [View.ld_unit_zero (S := S8000x1) hz, View.ld_unit_zero (S := S1x5) hz, View.ld_unit_zero (S := S5x10) hz, View.ld_unit_zero (S := S1x10) hz, View.ld_unit_zero (S := S10x10) hz, View.ld_unit_zero (S := S10x5) hz, View.ld_unit_zero (S := S5x1) hz, View.ld_unit_zero (S := S1x1) hz]
  funext y
  exact point_eq m c t y

/-- An index of the array is in point `t`'s block iff each coordinate is in the block's range on its axis. -/
theorem mem_blk (t : Fin cfg0.N) (i : S4000000x1.Idx) :
    i ∈ ((cfg0.win 21).blk t).view.set ↔ ∀ a : Fin 2, win0_21.index t a * S8000x1.size a ≤ (i a).val ∧ (i a).val < win0_21.index t a * S8000x1.size a + S8000x1.size a := by
  show i ∈ ((View.whole main_v20).slice (win0_21.rect t)).set ↔ _
  rw [View.set_slice_whole, Rect.mem_set_unit]
  exact Iff.rfl

/-- Row `r` of the array lies in the block of point `r / 8000`. -/
theorem cover (i : S4000000x1.Idx) : ∃ t : Fin cfg0.N, (cfg0.win 21).flush t = true ∧ i ∈ ((cfg0.win 21).blk t).view.set := by
  have h0 : (i 0).val < 4000000 := (i 0).isLt
  have h1 : (i 1).val < 1 := (i 1).isLt
  have hN : (i 0).val / 8000 < cfg0.N := by rw [show cfg0.N = 500 from N_0]; omega
  refine ⟨⟨(i 0).val / 8000, hN⟩, flush0_21 _, ?_⟩
  rw [mem_blk]
  intro a
  match a with
  | ⟨0, _⟩ =>
    show win0_21.index ⟨(i 0).val / 8000, hN⟩ (0 : Fin 2) * 8000 ≤ (i 0).val ∧ (i 0).val < win0_21.index ⟨(i 0).val / 8000, hN⟩ (0 : Fin 2) * 8000 + 8000
    rw [(idx_21 ⟨(i 0).val / 8000, hN⟩).1]
    show (i 0).val / 8000 * 8000 ≤ (i 0).val ∧ (i 0).val < (i 0).val / 8000 * 8000 + 8000
    omega
  | ⟨1, _⟩ =>
    show win0_21.index ⟨(i 0).val / 8000, hN⟩ (1 : Fin 2) * 1 ≤ (i 1).val ∧ (i 1).val < win0_21.index ⟨(i 0).val / 8000, hN⟩ (1 : Fin 2) * 1 + 1
    rw [(idx_21 ⟨(i 0).val / 8000, hN⟩).2]
    omega

/-- The result array after the run is `result`. -/
theorem final (c : Dev nD) : (dats m 0 c).arrAt 21 cfg0.N = result m c :=
  (dats m 0 c).arrAt_eq_of_cover 21 (result m c) (fun t _ => flushed_eq m c t) cover

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v20) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20) :=
  (θ_run defs _ _).mono (fun r h c => ⟨(h c).1.trans (final m c), (h c).2⟩) (Value.run_blocks m ρ)

end Cert.KernelIdeal.Whole

end
-- ==== Proof.RefValue.lean ====
/-
  The reference, read row by row. Its program is the same ten dense layers on the whole `[4000000, ·]` activations: each
  layer transposes the weights `W[j, k]`, contracts the activations' second axis with them, adds the bias broadcast to a row
  and then down the rows, and (layers 1–9) takes the maximum with a zero splat. Read at `(r, j)`, layer by layer, this is
  `Mlp.dense W b` of the previous activations' row `r`, then `Mlp.relu`; so the result array is `Mlp.G` of the arguments.
-/
import proofs.«140222_j18605798326828_1_alg».proof.Proof.Gen.ReferenceIdeal.Read
import proofs.«140222_j18605798326828_1_alg».proof.Proof.Mlp
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.Mlp

/-- Layer 1 (1 → 5): the reference's product with the transposed weights plus the broadcast bias is, row by row,
    the dense layer of the input's row. -/
theorem dense_1 (x0 : (⟨S4000000x1, .f32⟩ : BufTy).Contents (Elt Ideal)) (x1 : (⟨S5x1, .f32⟩ : BufTy).Contents (Elt Ideal)) (x2 : (⟨S5, .f32⟩ : BufTy).Contents (Elt Ideal)) (r : Fin 4000000) :
    rowOf (val_main_v4 (F := Ideal) x0 x1 x2) r = dense x1 x2 (rowOf x0 r) := by
  funext j
  show val_main_v4 (F := Ideal) x0 x1 x2 (ix2 r j) = (∑ k : Fin 1, x0 (ix2 r k) * x1 (ix2 j k)) + x2 (ix1 j)
  have e1 : ∀ k : Fin 1, lidx_main_v1 (ix2 r j) k = ix2 r k := fun k => funext fun a => Fin.ext (by
    match a with | ⟨0, _⟩ => rfl | ⟨1, _⟩ => rfl)
  have e2 : ∀ k : Fin 1, idx_main_v0 (ridx_main_v1 (ix2 r j) k) = ix2 j k := fun k => funext fun a => Fin.ext (by
    match a with | ⟨0, _⟩ => rfl | ⟨1, _⟩ => rfl)
  have e3 : idx_main_v2 (idx_main_v3 (ix2 r j)) = ix1 j := funext fun a => Fin.ext (by
    match a with | ⟨0, _⟩ => rfl)
  rw [val_main_v4_apply, val_main_v1_apply, val_main_v3_apply, val_main_v2_apply, e3]
  simp only [val_main_v0_apply, e1, e2]
  rfl

/-- The rectifier after layer 1, row by row. -/
theorem relu_1 (x0 : (⟨S4000000x1, .f32⟩ : BufTy).Contents (Elt Ideal)) (x1 : (⟨S5x1, .f32⟩ : BufTy).Contents (Elt Ideal)) (x2 : (⟨S5, .f32⟩ : BufTy).Contents (Elt Ideal)) (r : Fin 4000000) :
    rowOf (val_main_v5 (F := Ideal) x0 x1 x2) r = relu (rowOf (val_main_v4 (F := Ideal) x0 x1 x2) r) := by
  funext j
  show val_main_v5 (F := Ideal) x0 x1 x2 (ix2 r j) = max (val_main_v4 (F := Ideal) x0 x1 x2 (ix2 r j)) zero32
  rw [val_main_v5_apply, val_main_call0_v0_apply, val_main_call0_cst_apply]
  rfl

/-- Layer 2 (5 → 10): the reference's product with the transposed weights plus the broadcast bias is, row by row,
    the dense layer of the previous activations' row. -/
theorem dense_2 (x0 : (⟨S4000000x1, .f32⟩ : BufTy).Contents (Elt Ideal)) (x1 : (⟨S5x1, .f32⟩ : BufTy).Contents (Elt Ideal)) (x2 : (⟨S5, .f32⟩ : BufTy).Contents (Elt Ideal)) (x3 : (⟨S10x5, .f32⟩ : BufTy).Contents (Elt Ideal)) (x4 : (⟨S10, .f32⟩ : BufTy).Contents (Elt Ideal)) (r : Fin 4000000) :
    rowOf (val_main_v10 (F := Ideal) x0 x1 x2 x3 x4) r = dense x3 x4 (rowOf (val_main_v5 (F := Ideal) x0 x1 x2) r) := by
  funext j
  show val_main_v10 (F := Ideal) x0 x1 x2 x3 x4 (ix2 r j) = (∑ k : Fin 5, (val_main_v5 (F := Ideal) x0 x1 x2) (ix2 r k) * x3 (ix2 j k)) + x4 (ix1 j)
  have e1 : ∀ k : Fin 5, lidx_main_v7 (ix2 r j) k = ix2 r k := fun k => funext fun a => Fin.ext (by
    match a with | ⟨0, _⟩ => rfl | ⟨1, _⟩ => rfl)
  have e2 : ∀ k : Fin 5, idx_main_v6 (ridx_main_v7 (ix2 r j) k) = ix2 j k := fun k => funext fun a => Fin.ext (by
    match a with | ⟨0, _⟩ => rfl | ⟨1, _⟩ => rfl)
  have e3 : idx_main_v8 (idx_main_v9 (ix2 r j)) = ix1 j := funext fun a => Fin.ext (by
    match a with | ⟨0, _⟩ => rfl)
  rw [val_main_v10_apply, val_main_v7_apply, val_main_v9_apply, val_main_v8_apply, e3]
  simp only [val_main_v6_apply, e1, e2]
  rfl

/-- The rectifier after layer 2, row by row. -/
theorem relu_2 (x0 : (⟨S4000000x1, .f32⟩ : BufTy).Contents (Elt Ideal)) (x1 : (⟨S5x1, .f32⟩ : BufTy).Contents (Elt Ideal)) (x2 : (⟨S5, .f32⟩ : BufTy).Contents (Elt Ideal)) (x3 : (⟨S10x5, .f32⟩ : BufTy).Contents (Elt Ideal)) (x4 : (⟨S10, .f32⟩ : BufTy).Contents (Elt Ideal)) (r : Fin 4000000) :
    rowOf (val_main_v11 (F := Ideal) x0 x1 x2 x3 x4) r = relu (rowOf (val_main_v10 (F := Ideal) x0 x1 x2 x3 x4) r) := by
  funext j
  show val_main_v11 (F := Ideal) x0 x1 x2 x3 x4 (ix2 r j) = max (val_main_v10 (F := Ideal) x0 x1 x2 x3 x4 (ix2 r j)) zero32
  rw [val_main_v11_apply, val_main_call1_v0_apply, val_main_call1_cst_apply]
  rfl

/-- Layer 3 (10 → 10): the reference's product with the transposed weights plus the broadcast bias is, row by row,
    the dense layer of the previous activations' row. -/
theorem dense_3 (x0 : (⟨S4000000x1, .f32⟩ : BufTy).Contents (Elt Ideal)) (x1 : (⟨S5x1, .f32⟩ : BufTy).Contents (Elt Ideal)) (x2 : (⟨S5, .f32⟩ : BufTy).Contents (Elt Ideal)) (x3 : (⟨S10x5, .f32⟩ : BufTy).Contents (Elt Ideal)) (x4 : (⟨S10, .f32⟩ : BufTy).Contents (Elt Ideal)) (x5 : (⟨S10x10, .f32⟩ : BufTy).Contents (Elt Ideal)) (x6 : (⟨S10, .f32⟩ : BufTy).Contents (Elt Ideal)) (r : Fin 4000000) :
    rowOf (val_main_v16 (F := Ideal) x0 x1 x2 x3 x4 x5 x6) r = dense x5 x6 (rowOf (val_main_v11 (F := Ideal) x0 x1 x2 x3 x4) r) := by
  funext j
  show val_main_v16 (F := Ideal) x0 x1 x2 x3 x4 x5 x6 (ix2 r j) = (∑ k : Fin 10, (val_main_v11 (F := Ideal) x0 x1 x2 x3 x4) (ix2 r k) * x5 (ix2 j k)) + x6 (ix1 j)
  have e1 : ∀ k : Fin 10, lidx_main_v13 (ix2 r j) k = ix2 r k := fun k => funext fun a => Fin.ext (by
    match a with | ⟨0, _⟩ => rfl | ⟨1, _⟩ => rfl)
  have e2 : ∀ k : Fin 10, idx_main_v12 (ridx_main_v13 (ix2 r j) k) = ix2 j k := fun k => funext fun a => Fin.ext (by
    match a with | ⟨0, _⟩ => rfl | ⟨1, _⟩ => rfl)
  have e3 : idx_main_v14 (idx_main_v15 (ix2 r j)) = ix1 j := funext fun a => Fin.ext (by
    match a with | ⟨0, _⟩ => rfl)
  rw [val_main_v16_apply, val_main_v13_apply, val_main_v15_apply, val_main_v14_apply, e3]
  simp only [val_main_v12_apply, e1, e2]
  rfl

/-- The rectifier after layer 3, row by row. -/
theorem relu_3 (x0 : (⟨S4000000x1, .f32⟩ : BufTy).Contents (Elt Ideal)) (x1 : (⟨S5x1, .f32⟩ : BufTy).Contents (Elt Ideal)) (x2 : (⟨S5, .f32⟩ : BufTy).Contents (Elt Ideal)) (x3 : (⟨S10x5, .f32⟩ : BufTy).Contents (Elt Ideal)) (x4 : (⟨S10, .f32⟩ : BufTy).Contents (Elt Ideal)) (x5 : (⟨S10x10, .f32⟩ : BufTy).Contents (Elt Ideal)) (x6 : (⟨S10, .f32⟩ : BufTy).Contents (Elt Ideal)) (r : Fin 4000000) :
    rowOf (val_main_v17 (F := Ideal) x0 x1 x2 x3 x4 x5 x6) r = relu (rowOf (val_main_v16 (F := Ideal) x0 x1 x2 x3 x4 x5 x6) r) := by
  funext j
  show val_main_v17 (F := Ideal) x0 x1 x2 x3 x4 x5 x6 (ix2 r j) = max (val_main_v16 (F := Ideal) x0 x1 x2 x3 x4 x5 x6 (ix2 r j)) zero32
  rw [val_main_v17_apply, val_main_call2_v0_apply, val_main_call2_cst_apply]
  rfl

/-- Layer 4 (10 → 10): the reference's product with the transposed weights plus the broadcast bias is, row by row,
    the dense layer of the previous activations' row. -/
theorem dense_4 (x0 : (⟨S4000000x1, .f32⟩ : BufTy).Contents (Elt Ideal)) (x1 : (⟨S5x1, .f32⟩ : BufTy).Contents (Elt Ideal)) (x2 : (⟨S5, .f32⟩ : BufTy).Contents (Elt Ideal)) (x3 : (⟨S10x5, .f32⟩ : BufTy).Contents (Elt Ideal)) (x4 : (⟨S10, .f32⟩ : BufTy).Contents (Elt Ideal)) (x5 : (⟨S10x10, .f32⟩ : BufTy).Contents (Elt Ideal)) (x6 : (⟨S10, .f32⟩ : BufTy).Contents (Elt Ideal)) (x7 : (⟨S10x10, .f32⟩ : BufTy).Contents (Elt Ideal)) (x8 : (⟨S10, .f32⟩ : BufTy).Contents (Elt Ideal)) (r : Fin 4000000) :
    rowOf (val_main_v22 (F := Ideal) x0 x1 x2 x3 x4 x5 x6 x7 x8) r = dense x7 x8 (rowOf (val_main_v17 (F := Ideal) x0 x1 x2 x3 x4 x5 x6) r) := by
  funext j
  show val_main_v22 (F := Ideal) x0 x1 x2 x3 x4 x5 x6 x7 x8 (ix2 r j) = (∑ k : Fin 10, (val_main_v17 (F := Ideal) x0 x1 x2 x3 x4 x5 x6) (ix2 r k) * x7 (ix2 j k)) + x8 (ix1 j)
  have e1 : ∀ k : Fin 10, lidx_main_v19 (ix2 r j) k = ix2 r k := fun k => funext fun a => Fin.ext (by
    match a with | ⟨0, _⟩ => rfl | ⟨1, _⟩ => rfl)
  have e2 : ∀ k : Fin 10, idx_main_v18 (ridx_main_v19 (ix2 r j) k) = ix2 j k := fun k => funext fun a => Fin.ext (by
    match a with | ⟨0, _⟩ => rfl | ⟨1, _⟩ => rfl)
  have e3 : idx_main_v20 (idx_main_v21 (ix2 r j)) = ix1 j := funext fun a => Fin.ext (by
    match a with | ⟨0, _⟩ => rfl)
  rw [val_main_v22_apply, val_main_v19_apply, val_main_v21_apply, val_main_v20_apply, e3]
  simp only [val_main_v18_apply, e1, e2]
  rfl

/-- The rectifier after layer 4, row by row. -/
theorem relu_4 (x0 : (⟨S4000000x1, .f32⟩ : BufTy).Contents (Elt Ideal)) (x1 : (⟨S5x1, .f32⟩ : BufTy).Contents (Elt Ideal)) (x2 : (⟨S5, .f32⟩ : BufTy).Contents (Elt Ideal)) (x3 : (⟨S10x5, .f32⟩ : BufTy).Contents (Elt Ideal)) (x4 : (⟨S10, .f32⟩ : BufTy).Contents (Elt Ideal)) (x5 : (⟨S10x10, .f32⟩ : BufTy).Contents (Elt Ideal)) (x6 : (⟨S10, .f32⟩ : BufTy).Contents (Elt Ideal)) (x7 : (⟨S10x10, .f32⟩ : BufTy).Contents (Elt Ideal)) (x8 : (⟨S10, .f32⟩ : BufTy).Contents (Elt Ideal)) (r : Fin 4000000) :
    rowOf (val_main_v23 (F := Ideal) x0 x1 x2 x3 x4 x5 x6 x7 x8) r = relu (rowOf (val_main_v22 (F := Ideal) x0 x1 x2 x3 x4 x5 x6 x7 x8) r) := by
  funext j
  show val_main_v23 (F := Ideal) x0 x1 x2 x3 x4 x5 x6 x7 x8 (ix2 r j) = max (val_main_v22 (F := Ideal) x0 x1 x2 x3 x4 x5 x6 x7 x8 (ix2 r j)) zero32
  rw [val_main_v23_apply, val_main_call3_v0_apply, val_main_call3_cst_apply]
  rfl

/-- Layer 5 (10 → 10): the reference's product with the transposed weights plus the broadcast bias is, row by row,
    the dense layer of the previous activations' row. -/
theorem dense_5 (x0 : (⟨S4000000x1, .f32⟩ : BufTy).Contents (Elt Ideal)) (x1 : (⟨S5x1, .f32⟩ : BufTy).Contents (Elt Ideal)) (x2 : (⟨S5, .f32⟩ : BufTy).Contents (Elt Ideal)) (x3 : (⟨S10x5, .f32⟩ : BufTy).Contents (Elt Ideal)) (x4 : (⟨S10, .f32⟩ : BufTy).Contents (Elt Ideal)) (x5 : (⟨S10x10, .f32⟩ : BufTy).Contents (Elt Ideal)) (x6 : (⟨S10, .f32⟩ : BufTy).Contents (Elt Ideal)) (x7 : (⟨S10x10, .f32⟩ : BufTy).Contents (Elt Ideal)) (x8 : (⟨S10, .f32⟩ : BufTy).Contents (Elt Ideal)) (x9 : (⟨S10x10, .f32⟩ : BufTy).Contents (Elt Ideal)) (x10 : (⟨S10, .f32⟩ : BufTy).Contents (Elt Ideal)) (r : Fin 4000000) :
    rowOf (val_main_v28 (F := Ideal) x0 x1 x2 x3 x4 x5 x6 x7 x8 x9 x10) r = dense x9 x10 (rowOf (val_main_v23 (F := Ideal) x0 x1 x2 x3 x4 x5 x6 x7 x8) r) := by
  funext j
  show val_main_v28 (F := Ideal) x0 x1 x2 x3 x4 x5 x6 x7 x8 x9 x10 (ix2 r j) = (∑ k : Fin 10, (val_main_v23 (F := Ideal) x0 x1 x2 x3 x4 x5 x6 x7 x8) (ix2 r k) * x9 (ix2 j k)) + x10 (ix1 j)
  have e1 : ∀ k : Fin 10, lidx_main_v25 (ix2 r j) k = ix2 r k := fun k => funext fun a => Fin.ext (by
    match a with | ⟨0, _⟩ => rfl | ⟨1, _⟩ => rfl)
  have e2 : ∀ k : Fin 10, idx_main_v24 (ridx_main_v25 (ix2 r j) k) = ix2 j k := fun k => funext fun a => Fin.ext (by
    match a with | ⟨0, _⟩ => rfl | ⟨1, _⟩ => rfl)
  have e3 : idx_main_v26 (idx_main_v27 (ix2 r j)) = ix1 j := funext fun a => Fin.ext (by
    match a with | ⟨0, _⟩ => rfl)
  rw [val_main_v28_apply, val_main_v25_apply, val_main_v27_apply, val_main_v26_apply, e3]
  simp only [val_main_v24_apply, e1, e2]
  rfl

/-- The rectifier after layer 5, row by row. -/
theorem relu_5 (x0 : (⟨S4000000x1, .f32⟩ : BufTy).Contents (Elt Ideal)) (x1 : (⟨S5x1, .f32⟩ : BufTy).Contents (Elt Ideal)) (x2 : (⟨S5, .f32⟩ : BufTy).Contents (Elt Ideal)) (x3 : (⟨S10x5, .f32⟩ : BufTy).Contents (Elt Ideal)) (x4 : (⟨S10, .f32⟩ : BufTy).Contents (Elt Ideal)) (x5 : (⟨S10x10, .f32⟩ : BufTy).Contents (Elt Ideal)) (x6 : (⟨S10, .f32⟩ : BufTy).Contents (Elt Ideal)) (x7 : (⟨S10x10, .f32⟩ : BufTy).Contents (Elt Ideal)) (x8 : (⟨S10, .f32⟩ : BufTy).Contents (Elt Ideal)) (x9 : (⟨S10x10, .f32⟩ : BufTy).Contents (Elt Ideal)) (x10 : (⟨S10, .f32⟩ : BufTy).Contents (Elt Ideal)) (r : Fin 4000000) :
    rowOf (val_main_v29 (F := Ideal) x0 x1 x2 x3 x4 x5 x6 x7 x8 x9 x10) r = relu (rowOf (val_main_v28 (F := Ideal) x0 x1 x2 x3 x4 x5 x6 x7 x8 x9 x10) r) := by
  funext j
  show val_main_v29 (F := Ideal) x0 x1 x2 x3 x4 x5 x6 x7 x8 x9 x10 (ix2 r j) = max (val_main_v28 (F := Ideal) x0 x1 x2 x3 x4 x5 x6 x7 x8 x9 x10 (ix2 r j)) zero32
  rw [val_main_v29_apply, val_main_call4_v0_apply, val_main_call4_cst_apply]
  rfl

/-- Layer 6 (10 → 10): the reference's product with the transposed weights plus the broadcast bias is, row by row,
    the dense layer of the previous activations' row. -/
theorem dense_6 (x0 : (⟨S4000000x1, .f32⟩ : BufTy).Contents (Elt Ideal)) (x1 : (⟨S5x1, .f32⟩ : BufTy).Contents (Elt Ideal)) (x2 : (⟨S5, .f32⟩ : BufTy).Contents (Elt Ideal)) (x3 : (⟨S10x5, .f32⟩ : BufTy).Contents (Elt Ideal)) (x4 : (⟨S10, .f32⟩ : BufTy).Contents (Elt Ideal)) (x5 : (⟨S10x10, .f32⟩ : BufTy).Contents (Elt Ideal)) (x6 : (⟨S10, .f32⟩ : BufTy).Contents (Elt Ideal)) (x7 : (⟨S10x10, .f32⟩ : BufTy).Contents (Elt Ideal)) (x8 : (⟨S10, .f32⟩ : BufTy).Contents (Elt Ideal)) (x9 : (⟨S10x10, .f32⟩ : BufTy).Contents (Elt Ideal)) (x10 : (⟨S10, .f32⟩ : BufTy).Contents (Elt Ideal)) (x11 : (⟨S10x10, .f32⟩ : BufTy).Contents (Elt Ideal)) (x12 : (⟨S10, .f32⟩ : BufTy).Contents (Elt Ideal)) (r : Fin 4000000) :
    rowOf (val_main_v34 (F := Ideal) x0 x1 x2 x3 x4 x5 x6 x7 x8 x9 x10 x11 x12) r = dense x11 x12 (rowOf (val_main_v29 (F := Ideal) x0 x1 x2 x3 x4 x5 x6 x7 x8 x9 x10) r) := by
  funext j
  show val_main_v34 (F := Ideal) x0 x1 x2 x3 x4 x5 x6 x7 x8 x9 x10 x11 x12 (ix2 r j) = (∑ k : Fin 10, (val_main_v29 (F := Ideal) x0 x1 x2 x3 x4 x5 x6 x7 x8 x9 x10) (ix2 r k) * x11 (ix2 j k)) + x12 (ix1 j)
  have e1 : ∀ k : Fin 10, lidx_main_v31 (ix2 r j) k = ix2 r k := fun k => funext fun a => Fin.ext (by
    match a with | ⟨0, _⟩ => rfl | ⟨1, _⟩ => rfl)
  have e2 : ∀ k : Fin 10, idx_main_v30 (ridx_main_v31 (ix2 r j) k) = ix2 j k := fun k => funext fun a => Fin.ext (by
    match a with | ⟨0, _⟩ => rfl | ⟨1, _⟩ => rfl)
  have e3 : idx_main_v32 (idx_main_v33 (ix2 r j)) = ix1 j := funext fun a => Fin.ext (by
    match a with | ⟨0, _⟩ => rfl)
  rw [val_main_v34_apply, val_main_v31_apply, val_main_v33_apply, val_main_v32_apply, e3]
  simp only [val_main_v30_apply, e1, e2]
  rfl

/-- The rectifier after layer 6, row by row. -/
theorem relu_6 (x0 : (⟨S4000000x1, .f32⟩ : BufTy).Contents (Elt Ideal)) (x1 : (⟨S5x1, .f32⟩ : BufTy).Contents (Elt Ideal)) (x2 : (⟨S5, .f32⟩ : BufTy).Contents (Elt Ideal)) (x3 : (⟨S10x5, .f32⟩ : BufTy).Contents (Elt Ideal)) (x4 : (⟨S10, .f32⟩ : BufTy).Contents (Elt Ideal)) (x5 : (⟨S10x10, .f32⟩ : BufTy).Contents (Elt Ideal)) (x6 : (⟨S10, .f32⟩ : BufTy).Contents (Elt Ideal)) (x7 : (⟨S10x10, .f32⟩ : BufTy).Contents (Elt Ideal)) (x8 : (⟨S10, .f32⟩ : BufTy).Contents (Elt Ideal)) (x9 : (⟨S10x10, .f32⟩ : BufTy).Contents (Elt Ideal)) (x10 : (⟨S10, .f32⟩ : BufTy).Contents (Elt Ideal)) (x11 : (⟨S10x10, .f32⟩ : BufTy).Contents (Elt Ideal)) (x12 : (⟨S10, .f32⟩ : BufTy).Contents (Elt Ideal)) (r : Fin 4000000) :
    rowOf (val_main_v35 (F := Ideal) x0 x1 x2 x3 x4 x5 x6 x7 x8 x9 x10 x11 x12) r = relu (rowOf (val_main_v34 (F := Ideal) x0 x1 x2 x3 x4 x5 x6 x7 x8 x9 x10 x11 x12) r) := by
  funext j
  show val_main_v35 (F := Ideal) x0 x1 x2 x3 x4 x5 x6 x7 x8 x9 x10 x11 x12 (ix2 r j) = max (val_main_v34 (F := Ideal) x0 x1 x2 x3 x4 x5 x6 x7 x8 x9 x10 x11 x12 (ix2 r j)) zero32
  rw [val_main_v35_apply, val_main_call5_v0_apply, val_main_call5_cst_apply]
  rfl

/-- Layer 7 (10 → 10): the reference's product with the transposed weights plus the broadcast bias is, row by row,
    the dense layer of the previous activations' row. -/
theorem dense_7 (x0 : (⟨S4000000x1, .f32⟩ : BufTy).Contents (Elt Ideal)) (x1 : (⟨S5x1, .f32⟩ : BufTy).Contents (Elt Ideal)) (x2 : (⟨S5, .f32⟩ : BufTy).Contents (Elt Ideal)) (x3 : (⟨S10x5, .f32⟩ : BufTy).Contents (Elt Ideal)) (x4 : (⟨S10, .f32⟩ : BufTy).Contents (Elt Ideal)) (x5 : (⟨S10x10, .f32⟩ : BufTy).Contents (Elt Ideal)) (x6 : (⟨S10, .f32⟩ : BufTy).Contents (Elt Ideal)) (x7 : (⟨S10x10, .f32⟩ : BufTy).Contents (Elt Ideal)) (x8 : (⟨S10, .f32⟩ : BufTy).Contents (Elt Ideal)) (x9 : (⟨S10x10, .f32⟩ : BufTy).Contents (Elt Ideal)) (x10 : (⟨S10, .f32⟩ : BufTy).Contents (Elt Ideal)) (x11 : (⟨S10x10, .f32⟩ : BufTy).Contents (Elt Ideal)) (x12 : (⟨S10, .f32⟩ : BufTy).Contents (Elt Ideal)) (x13 : (⟨S10x10, .f32⟩ : BufTy).Contents (Elt Ideal)) (x14 : (⟨S10, .f32⟩ : BufTy).Contents (Elt Ideal)) (r : Fin 4000000) :
    rowOf (val_main_v40 (F := Ideal) x0 x1 x2 x3 x4 x5 x6 x7 x8 x9 x10 x11 x12 x13 x14) r = dense x13 x14 (rowOf (val_main_v35 (F := Ideal) x0 x1 x2 x3 x4 x5 x6 x7 x8 x9 x10 x11 x12) r) := by
  funext j
  show val_main_v40 (F := Ideal) x0 x1 x2 x3 x4 x5 x6 x7 x8 x9 x10 x11 x12 x13 x14 (ix2 r j) = (∑ k : Fin 10, (val_main_v35 (F := Ideal) x0 x1 x2 x3 x4 x5 x6 x7 x8 x9 x10 x11 x12) (ix2 r k) * x13 (ix2 j k)) + x14 (ix1 j)
  have e1 : ∀ k : Fin 10, lidx_main_v37 (ix2 r j) k = ix2 r k := fun k => funext fun a => Fin.ext (by
    match a with | ⟨0, _⟩ => rfl | ⟨1, _⟩ => rfl)
  have e2 : ∀ k : Fin 10, idx_main_v36 (ridx_main_v37 (ix2 r j) k) = ix2 j k := fun k => funext fun a => Fin.ext (by
    match a with | ⟨0, _⟩ => rfl | ⟨1, _⟩ => rfl)
  have e3 : idx_main_v38 (idx_main_v39 (ix2 r j)) = ix1 j := funext fun a => Fin.ext (by
    match a with | ⟨0, _⟩ => rfl)
  rw [val_main_v40_apply, val_main_v37_apply, val_main_v39_apply, val_main_v38_apply, e3]
  simp only [val_main_v36_apply, e1, e2]
  rfl

/-- The rectifier after layer 7, row by row. -/
theorem relu_7 (x0 : (⟨S4000000x1, .f32⟩ : BufTy).Contents (Elt Ideal)) (x1 : (⟨S5x1, .f32⟩ : BufTy).Contents (Elt Ideal)) (x2 : (⟨S5, .f32⟩ : BufTy).Contents (Elt Ideal)) (x3 : (⟨S10x5, .f32⟩ : BufTy).Contents (Elt Ideal)) (x4 : (⟨S10, .f32⟩ : BufTy).Contents (Elt Ideal)) (x5 : (⟨S10x10, .f32⟩ : BufTy).Contents (Elt Ideal)) (x6 : (⟨S10, .f32⟩ : BufTy).Contents (Elt Ideal)) (x7 : (⟨S10x10, .f32⟩ : BufTy).Contents (Elt Ideal)) (x8 : (⟨S10, .f32⟩ : BufTy).Contents (Elt Ideal)) (x9 : (⟨S10x10, .f32⟩ : BufTy).Contents (Elt Ideal)) (x10 : (⟨S10, .f32⟩ : BufTy).Contents (Elt Ideal)) (x11 : (⟨S10x10, .f32⟩ : BufTy).Contents (Elt Ideal)) (x12 : (⟨S10, .f32⟩ : BufTy).Contents (Elt Ideal)) (x13 : (⟨S10x10, .f32⟩ : BufTy).Contents (Elt Ideal)) (x14 : (⟨S10, .f32⟩ : BufTy).Contents (Elt Ideal)) (r : Fin 4000000) :
    rowOf (val_main_v41 (F := Ideal) x0 x1 x2 x3 x4 x5 x6 x7 x8 x9 x10 x11 x12 x13 x14) r = relu (rowOf (val_main_v40 (F := Ideal) x0 x1 x2 x3 x4 x5 x6 x7 x8 x9 x10 x11 x12 x13 x14) r) := by
  funext j
  show val_main_v41 (F := Ideal) x0 x1 x2 x3 x4 x5 x6 x7 x8 x9 x10 x11 x12 x13 x14 (ix2 r j) = max (val_main_v40 (F := Ideal) x0 x1 x2 x3 x4 x5 x6 x7 x8 x9 x10 x11 x12 x13 x14 (ix2 r j)) zero32
  rw [val_main_v41_apply, val_main_call6_v0_apply, val_main_call6_cst_apply]
  rfl

/-- Layer 8 (10 → 10): the reference's product with the transposed weights plus the broadcast bias is, row by row,
    the dense layer of the previous activations' row. -/
theorem dense_8 (x0 : (⟨S4000000x1, .f32⟩ : BufTy).Contents (Elt Ideal)) (x1 : (⟨S5x1, .f32⟩ : BufTy).Contents (Elt Ideal)) (x2 : (⟨S5, .f32⟩ : BufTy).Contents (Elt Ideal)) (x3 : (⟨S10x5, .f32⟩ : BufTy).Contents (Elt Ideal)) (x4 : (⟨S10, .f32⟩ : BufTy).Contents (Elt Ideal)) (x5 : (⟨S10x10, .f32⟩ : BufTy).Contents (Elt Ideal)) (x6 : (⟨S10, .f32⟩ : BufTy).Contents (Elt Ideal)) (x7 : (⟨S10x10, .f32⟩ : BufTy).Contents (Elt Ideal)) (x8 : (⟨S10, .f32⟩ : BufTy).Contents (Elt Ideal)) (x9 : (⟨S10x10, .f32⟩ : BufTy).Contents (Elt Ideal)) (x10 : (⟨S10, .f32⟩ : BufTy).Contents (Elt Ideal)) (x11 : (⟨S10x10, .f32⟩ : BufTy).Contents (Elt Ideal)) (x12 : (⟨S10, .f32⟩ : BufTy).Contents (Elt Ideal)) (x13 : (⟨S10x10, .f32⟩ : BufTy).Contents (Elt Ideal)) (x14 : (⟨S10, .f32⟩ : BufTy).Contents (Elt Ideal)) (x15 : (⟨S10x10, .f32⟩ : BufTy).Contents (Elt Ideal)) (x16 : (⟨S10, .f32⟩ : BufTy).Contents (Elt Ideal)) (r : Fin 4000000) :
    rowOf (val_main_v46 (F := Ideal) x0 x1 x2 x3 x4 x5 x6 x7 x8 x9 x10 x11 x12 x13 x14 x15 x16) r = dense x15 x16 (rowOf (val_main_v41 (F := Ideal) x0 x1 x2 x3 x4 x5 x6 x7 x8 x9 x10 x11 x12 x13 x14) r) := by
  funext j
  show val_main_v46 (F := Ideal) x0 x1 x2 x3 x4 x5 x6 x7 x8 x9 x10 x11 x12 x13 x14 x15 x16 (ix2 r j) = (∑ k : Fin 10, (val_main_v41 (F := Ideal) x0 x1 x2 x3 x4 x5 x6 x7 x8 x9 x10 x11 x12 x13 x14) (ix2 r k) * x15 (ix2 j k)) + x16 (ix1 j)
  have e1 : ∀ k : Fin 10, lidx_main_v43 (ix2 r j) k = ix2 r k := fun k => funext fun a => Fin.ext (by
    match a with | ⟨0, _⟩ => rfl | ⟨1, _⟩ => rfl)
  have e2 : ∀ k : Fin 10, idx_main_v42 (ridx_main_v43 (ix2 r j) k) = ix2 j k := fun k => funext fun a => Fin.ext (by
    match a with | ⟨0, _⟩ => rfl | ⟨1, _⟩ => rfl)
  have e3 : idx_main_v44 (idx_main_v45 (ix2 r j)) = ix1 j := funext fun a => Fin.ext (by
    match a with | ⟨0, _⟩ => rfl)
  rw [val_main_v46_apply, val_main_v43_apply, val_main_v45_apply, val_main_v44_apply, e3]
  simp only [val_main_v42_apply, e1, e2]
  rfl

/-- The rectifier after layer 8, row by row. -/
theorem relu_8 (x0 : (⟨S4000000x1, .f32⟩ : BufTy).Contents (Elt Ideal)) (x1 : (⟨S5x1, .f32⟩ : BufTy).Contents (Elt Ideal)) (x2 : (⟨S5, .f32⟩ : BufTy).Contents (Elt Ideal)) (x3 : (⟨S10x5, .f32⟩ : BufTy).Contents (Elt Ideal)) (x4 : (⟨S10, .f32⟩ : BufTy).Contents (Elt Ideal)) (x5 : (⟨S10x10, .f32⟩ : BufTy).Contents (Elt Ideal)) (x6 : (⟨S10, .f32⟩ : BufTy).Contents (Elt Ideal)) (x7 : (⟨S10x10, .f32⟩ : BufTy).Contents (Elt Ideal)) (x8 : (⟨S10, .f32⟩ : BufTy).Contents (Elt Ideal)) (x9 : (⟨S10x10, .f32⟩ : BufTy).Contents (Elt Ideal)) (x10 : (⟨S10, .f32⟩ : BufTy).Contents (Elt Ideal)) (x11 : (⟨S10x10, .f32⟩ : BufTy).Contents (Elt Ideal)) (x12 : (⟨S10, .f32⟩ : BufTy).Contents (Elt Ideal)) (x13 : (⟨S10x10, .f32⟩ : BufTy).Contents (Elt Ideal)) (x14 : (⟨S10, .f32⟩ : BufTy).Contents (Elt Ideal)) (x15 : (⟨S10x10, .f32⟩ : BufTy).Contents (Elt Ideal)) (x16 : (⟨S10, .f32⟩ : BufTy).Contents (Elt Ideal)) (r : Fin 4000000) :
    rowOf (val_main_v47 (F := Ideal) x0 x1 x2 x3 x4 x5 x6 x7 x8 x9 x10 x11 x12 x13 x14 x15 x16) r = relu (rowOf (val_main_v46 (F := Ideal) x0 x1 x2 x3 x4 x5 x6 x7 x8 x9 x10 x11 x12 x13 x14 x15 x16) r) := by
  funext j
  show val_main_v47 (F := Ideal) x0 x1 x2 x3 x4 x5 x6 x7 x8 x9 x10 x11 x12 x13 x14 x15 x16 (ix2 r j) = max (val_main_v46 (F := Ideal) x0 x1 x2 x3 x4 x5 x6 x7 x8 x9 x10 x11 x12 x13 x14 x15 x16 (ix2 r j)) zero32
  rw [val_main_v47_apply, val_main_call7_v0_apply, val_main_call7_cst_apply]
  rfl

/-- Layer 9 (10 → 5): the reference's product with the transposed weights plus the broadcast bias is, row by row,
    the dense layer of the previous activations' row. -/
theorem dense_9 (x0 : (⟨S4000000x1, .f32⟩ : BufTy).Contents (Elt Ideal)) (x1 : (⟨S5x1, .f32⟩ : BufTy).Contents (Elt Ideal)) (x2 : (⟨S5, .f32⟩ : BufTy).Contents (Elt Ideal)) (x3 : (⟨S10x5, .f32⟩ : BufTy).Contents (Elt Ideal)) (x4 : (⟨S10, .f32⟩ : BufTy).Contents (Elt Ideal)) (x5 : (⟨S10x10, .f32⟩ : BufTy).Contents (Elt Ideal)) (x6 : (⟨S10, .f32⟩ : BufTy).Contents (Elt Ideal)) (x7 : (⟨S10x10, .f32⟩ : BufTy).Contents (Elt Ideal)) (x8 : (⟨S10, .f32⟩ : BufTy).Contents (Elt Ideal)) (x9 : (⟨S10x10, .f32⟩ : BufTy).Contents (Elt Ideal)) (x10 : (⟨S10, .f32⟩ : BufTy).Contents (Elt Ideal)) (x11 : (⟨S10x10, .f32⟩ : BufTy).Contents (Elt Ideal)) (x12 : (⟨S10, .f32⟩ : BufTy).Contents (Elt Ideal)) (x13 : (⟨S10x10, .f32⟩ : BufTy).Contents (Elt Ideal)) (x14 : (⟨S10, .f32⟩ : BufTy).Contents (Elt Ideal)) (x15 : (⟨S10x10, .f32⟩ : BufTy).Contents (Elt Ideal)) (x16 : (⟨S10, .f32⟩ : BufTy).Contents (Elt Ideal)) (x17 : (⟨S5x10, .f32⟩ : BufTy).Contents (Elt Ideal)) (x18 : (⟨S5, .f32⟩ : BufTy).Contents (Elt Ideal)) (r : Fin 4000000) :
    rowOf (val_main_v52 (F := Ideal) x0 x1 x2 x3 x4 x5 x6 x7 x8 x9 x10 x11 x12 x13 x14 x15 x16 x17 x18) r = dense x17 x18 (rowOf (val_main_v47 (F := Ideal) x0 x1 x2 x3 x4 x5 x6 x7 x8 x9 x10 x11 x12 x13 x14 x15 x16) r) := by
  funext j
  show val_main_v52 (F := Ideal) x0 x1 x2 x3 x4 x5 x6 x7 x8 x9 x10 x11 x12 x13 x14 x15 x16 x17 x18 (ix2 r j) = (∑ k : Fin 10, (val_main_v47 (F := Ideal) x0 x1 x2 x3 x4 x5 x6 x7 x8 x9 x10 x11 x12 x13 x14 x15 x16) (ix2 r k) * x17 (ix2 j k)) + x18 (ix1 j)
  have e1 : ∀ k : Fin 10, lidx_main_v49 (ix2 r j) k = ix2 r k := fun k => funext fun a => Fin.ext (by
    match a with | ⟨0, _⟩ => rfl | ⟨1, _⟩ => rfl)
  have e2 : ∀ k : Fin 10, idx_main_v48 (ridx_main_v49 (ix2 r j) k) = ix2 j k := fun k => funext fun a => Fin.ext (by
    match a with | ⟨0, _⟩ => rfl | ⟨1, _⟩ => rfl)
  have e3 : idx_main_v50 (idx_main_v51 (ix2 r j)) = ix1 j := funext fun a => Fin.ext (by
    match a with | ⟨0, _⟩ => rfl)
  rw [val_main_v52_apply, val_main_v49_apply, val_main_v51_apply, val_main_v50_apply, e3]
  simp only [val_main_v48_apply, e1, e2]
  rfl

/-- The rectifier after layer 9, row by row. -/
theorem relu_9 (x0 : (⟨S4000000x1, .f32⟩ : BufTy).Contents (Elt Ideal)) (x1 : (⟨S5x1, .f32⟩ : BufTy).Contents (Elt Ideal)) (x2 : (⟨S5, .f32⟩ : BufTy).Contents (Elt Ideal)) (x3 : (⟨S10x5, .f32⟩ : BufTy).Contents (Elt Ideal)) (x4 : (⟨S10, .f32⟩ : BufTy).Contents (Elt Ideal)) (x5 : (⟨S10x10, .f32⟩ : BufTy).Contents (Elt Ideal)) (x6 : (⟨S10, .f32⟩ : BufTy).Contents (Elt Ideal)) (x7 : (⟨S10x10, .f32⟩ : BufTy).Contents (Elt Ideal)) (x8 : (⟨S10, .f32⟩ : BufTy).Contents (Elt Ideal)) (x9 : (⟨S10x10, .f32⟩ : BufTy).Contents (Elt Ideal)) (x10 : (⟨S10, .f32⟩ : BufTy).Contents (Elt Ideal)) (x11 : (⟨S10x10, .f32⟩ : BufTy).Contents (Elt Ideal)) (x12 : (⟨S10, .f32⟩ : BufTy).Contents (Elt Ideal)) (x13 : (⟨S10x10, .f32⟩ : BufTy).Contents (Elt Ideal)) (x14 : (⟨S10, .f32⟩ : BufTy).Contents (Elt Ideal)) (x15 : (⟨S10x10, .f32⟩ : BufTy).Contents (Elt Ideal)) (x16 : (⟨S10, .f32⟩ : BufTy).Contents (Elt Ideal)) (x17 : (⟨S5x10, .f32⟩ : BufTy).Contents (Elt Ideal)) (x18 : (⟨S5, .f32⟩ : BufTy).Contents (Elt Ideal)) (r : Fin 4000000) :
    rowOf (val_main_v53 (F := Ideal) x0 x1 x2 x3 x4 x5 x6 x7 x8 x9 x10 x11 x12 x13 x14 x15 x16 x17 x18) r = relu (rowOf (val_main_v52 (F := Ideal) x0 x1 x2 x3 x4 x5 x6 x7 x8 x9 x10 x11 x12 x13 x14 x15 x16 x17 x18) r) := by
  funext j
  show val_main_v53 (F := Ideal) x0 x1 x2 x3 x4 x5 x6 x7 x8 x9 x10 x11 x12 x13 x14 x15 x16 x17 x18 (ix2 r j) = max (val_main_v52 (F := Ideal) x0 x1 x2 x3 x4 x5 x6 x7 x8 x9 x10 x11 x12 x13 x14 x15 x16 x17 x18 (ix2 r j)) zero32
  rw [val_main_v53_apply, val_main_call8_v0_apply, val_main_call8_cst_apply]
  rfl

/-- Layer 10 (5 → 1): the reference's product with the transposed weights plus the broadcast bias is, row by row,
    the dense layer of the previous activations' row. -/
theorem dense_10 (x0 : (⟨S4000000x1, .f32⟩ : BufTy).Contents (Elt Ideal)) (x1 : (⟨S5x1, .f32⟩ : BufTy).Contents (Elt Ideal)) (x2 : (⟨S5, .f32⟩ : BufTy).Contents (Elt Ideal)) (x3 : (⟨S10x5, .f32⟩ : BufTy).Contents (Elt Ideal)) (x4 : (⟨S10, .f32⟩ : BufTy).Contents (Elt Ideal)) (x5 : (⟨S10x10, .f32⟩ : BufTy).Contents (Elt Ideal)) (x6 : (⟨S10, .f32⟩ : BufTy).Contents (Elt Ideal)) (x7 : (⟨S10x10, .f32⟩ : BufTy).Contents (Elt Ideal)) (x8 : (⟨S10, .f32⟩ : BufTy).Contents (Elt Ideal)) (x9 : (⟨S10x10, .f32⟩ : BufTy).Contents (Elt Ideal)) (x10 : (⟨S10, .f32⟩ : BufTy).Contents (Elt Ideal)) (x11 : (⟨S10x10, .f32⟩ : BufTy).Contents (Elt Ideal)) (x12 : (⟨S10, .f32⟩ : BufTy).Contents (Elt Ideal)) (x13 : (⟨S10x10, .f32⟩ : BufTy).Contents (Elt Ideal)) (x14 : (⟨S10, .f32⟩ : BufTy).Contents (Elt Ideal)) (x15 : (⟨S10x10, .f32⟩ : BufTy).Contents (Elt Ideal)) (x16 : (⟨S10, .f32⟩ : BufTy).Contents (Elt Ideal)) (x17 : (⟨S5x10, .f32⟩ : BufTy).Contents (Elt Ideal)) (x18 : (⟨S5, .f32⟩ : BufTy).Contents (Elt Ideal)) (x19 : (⟨S1x5, .f32⟩ : BufTy).Contents (Elt Ideal)) (x20 : (⟨S1, .f32⟩ : BufTy).Contents (Elt Ideal)) (r : Fin 4000000) :
    rowOf (val_main_v58 (F := Ideal) x0 x1 x2 x3 x4 x5 x6 x7 x8 x9 x10 x11 x12 x13 x14 x15 x16 x17 x18 x19 x20) r = dense x19 x20 (rowOf (val_main_v53 (F := Ideal) x0 x1 x2 x3 x4 x5 x6 x7 x8 x9 x10 x11 x12 x13 x14 x15 x16 x17 x18) r) := by
  funext j
  show val_main_v58 (F := Ideal) x0 x1 x2 x3 x4 x5 x6 x7 x8 x9 x10 x11 x12 x13 x14 x15 x16 x17 x18 x19 x20 (ix2 r j) = (∑ k : Fin 5, (val_main_v53 (F := Ideal) x0 x1 x2 x3 x4 x5 x6 x7 x8 x9 x10 x11 x12 x13 x14 x15 x16 x17 x18) (ix2 r k) * x19 (ix2 j k)) + x20 (ix1 j)
  have e1 : ∀ k : Fin 5, lidx_main_v55 (ix2 r j) k = ix2 r k := fun k => funext fun a => Fin.ext (by
    match a with | ⟨0, _⟩ => rfl | ⟨1, _⟩ => rfl)
  have e2 : ∀ k : Fin 5, idx_main_v54 (ridx_main_v55 (ix2 r j) k) = ix2 j k := fun k => funext fun a => Fin.ext (by
    match a with | ⟨0, _⟩ => rfl | ⟨1, _⟩ => rfl)
  have e3 : idx_main_v56 (idx_main_v57 (ix2 r j)) = ix1 j := funext fun a => Fin.ext (by
    match a with | ⟨0, _⟩ => show (0 : ℕ) = j.val; have := j.isLt; omega)
  rw [val_main_v58_apply, val_main_v55_apply, val_main_v57_apply, val_main_v56_apply, e3]
  simp only [val_main_v54_apply, e1, e2]
  rfl

/-- The reference's result array is the ten layers of each row of `x`. -/
theorem result_eq (x0 : (⟨S4000000x1, .f32⟩ : BufTy).Contents (Elt Ideal)) (x1 : (⟨S5x1, .f32⟩ : BufTy).Contents (Elt Ideal)) (x2 : (⟨S5, .f32⟩ : BufTy).Contents (Elt Ideal)) (x3 : (⟨S10x5, .f32⟩ : BufTy).Contents (Elt Ideal)) (x4 : (⟨S10, .f32⟩ : BufTy).Contents (Elt Ideal)) (x5 : (⟨S10x10, .f32⟩ : BufTy).Contents (Elt Ideal)) (x6 : (⟨S10, .f32⟩ : BufTy).Contents (Elt Ideal)) (x7 : (⟨S10x10, .f32⟩ : BufTy).Contents (Elt Ideal)) (x8 : (⟨S10, .f32⟩ : BufTy).Contents (Elt Ideal)) (x9 : (⟨S10x10, .f32⟩ : BufTy).Contents (Elt Ideal)) (x10 : (⟨S10, .f32⟩ : BufTy).Contents (Elt Ideal)) (x11 : (⟨S10x10, .f32⟩ : BufTy).Contents (Elt Ideal)) (x12 : (⟨S10, .f32⟩ : BufTy).Contents (Elt Ideal)) (x13 : (⟨S10x10, .f32⟩ : BufTy).Contents (Elt Ideal)) (x14 : (⟨S10, .f32⟩ : BufTy).Contents (Elt Ideal)) (x15 : (⟨S10x10, .f32⟩ : BufTy).Contents (Elt Ideal)) (x16 : (⟨S10, .f32⟩ : BufTy).Contents (Elt Ideal)) (x17 : (⟨S5x10, .f32⟩ : BufTy).Contents (Elt Ideal)) (x18 : (⟨S5, .f32⟩ : BufTy).Contents (Elt Ideal)) (x19 : (⟨S1x5, .f32⟩ : BufTy).Contents (Elt Ideal)) (x20 : (⟨S1, .f32⟩ : BufTy).Contents (Elt Ideal)) :
    val_main_v58 (F := Ideal) x0 x1 x2 x3 x4 x5 x6 x7 x8 x9 x10 x11 x12 x13 x14 x15 x16 x17 x18 x19 x20 = G x0 x1 x2 x3 x4 x5 x6 x7 x8 x9 x10 x11 x12 x13 x14 x15 x16 x17 x18 x19 x20 := by
  funext i
  obtain ⟨r, q, rfl⟩ : ∃ (r : Fin 4000000) (q : Fin 1), i = ix2 r q := ⟨i 0, i 1, eq_ix2 i⟩
  rw [G_ix2]
  show rowOf (val_main_v58 (F := Ideal) x0 x1 x2 x3 x4 x5 x6 x7 x8 x9 x10 x11 x12 x13 x14 x15 x16 x17 x18 x19 x20) r q = _
  unfold net
  rw [dense_10, relu_9, dense_9, relu_8, dense_8, relu_7, dense_7, relu_6, dense_6, relu_5, dense_5, relu_4, dense_4, relu_3, dense_3, relu_2, dense_2, relu_1, dense_1]

end Cert.ReferenceIdeal.RefValue

end
-- ==== Proof.lean ====
/-
  A ten-layer perceptron (1 → 5 → 10 → 10 → 10 → 10 → 10 → 10 → 10 → 5 → 1, a rectifier after each of the first nine layers)
  applied to each of 4,000,000 scalar inputs: a kernel that walks the rows in 500 blocks of 8000, multiplying by weights the
  host transposed beforehand and adding biases the host re-cast as one-row matrices, against the plain program
  `relu(h · Wᵀ + b)` nine times and `h · Wᵀ + b` once on the whole array.
  On the extended reals the two are one function. No operation mixes rows, so both are determined row by row; on a row each
  layer is `j ↦ (∑ k, h k · W[j, k]) + b[j]` in both programs — the kernel reads `W[j, k]` as `(Wᵀ)[k, j]` and `b[j]` as entry
  `(0, j)` of the re-cast bias, a matrix product into a zero accumulator is the bare sum, and a change of tiling changes
  nothing — followed by the same `max · 0`. Nothing is rearranged beyond that re-indexing, so no finiteness of the inputs is
  used. `Mlp.G` is that function of the arguments; `KernelIdeal.Whole.run` says the kernel's result array ends holding it
  (block by block, the blocks covering the array), `ReferenceIdeal.RefValue.result_eq` that the reference's result term is it.
  The three programs run and keep their arguments by their frames; the idealization rewrote nothing, so there is nothing to
  preserve.
-/
import proofs.«140222_j18605798326828_1_alg».proof.Defs
import proofs.«140222_j18605798326828_1_alg».proof.Proof.Gen.Kernel
import proofs.«140222_j18605798326828_1_alg».proof.Proof.Gen.Kernel.Frame
import proofs.«140222_j18605798326828_1_alg».proof.Proof.Gen.KernelIdeal
import proofs.«140222_j18605798326828_1_alg».proof.Proof.Gen.KernelIdeal.Frame
import proofs.«140222_j18605798326828_1_alg».proof.Proof.Gen.KernelIdeal.Value
import proofs.«140222_j18605798326828_1_alg».proof.Proof.Gen.ReferenceIdeal
import proofs.«140222_j18605798326828_1_alg».proof.Proof.Gen.ReferenceIdeal.Run
import proofs.«140222_j18605798326828_1_alg».proof.Proof.Gen.ReferenceIdeal.Read
import proofs.«140222_j18605798326828_1_alg».proof.Proof.Gen.Pre_finite_inputs
import proofs.«140222_j18605798326828_1_alg».proof.Proof.Mlp
import proofs.«140222_j18605798326828_1_alg».proof.Proof.KernelValue
import proofs.«140222_j18605798326828_1_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result array at `Mlp.G` of the arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, Cert.ReferenceIdeal.RefValue.result_eq]
  obtain ⟨e0, e1, e2, e3, e4, e5, e6, e7, e8, e9, e10, e11, e12, e13, e14, e15, e16, e17, e18, e19, e20⟩ := hagree c
  rw [e0, e1, e2, e3, e4, e5, e6, e7, e8, e9, e10, e11, e12, e13, e14, e15, e16, e17, e18, e19, e20]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
